-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2 : Shape := ⟨3, ![4, 512, 2]⟩
abbrev S4x128x93x305 : Shape := ⟨4, ![4, 128, 93, 305]⟩
abbrev S4x128x47x153 : Shape := ⟨4, ![4, 128, 47, 153]⟩
abbrev S4x128x24x77 : Shape := ⟨4, ![4, 128, 24, 77]⟩
abbrev S256x83 : Shape := ⟨2, ![256, 83]⟩
abbrev S256 : Shape := ⟨1, ![256]⟩
abbrev S_ : Shape := ⟨0, ![]⟩

class Facts : Prop where
  bcast_S_S4x512x2 : S_.BroadcastsInDim S4x512x2 (![] : Fin 0 → Fin S4x512x2.rank)
  reducesTo_S4x512x2_S_d0_1_2 : S4x512x2.ReducesTo [0, 1, 2] S_
  h_S_ : 0 < S_.numel
  bcast_S_S4x128x93x305 : S_.BroadcastsInDim S4x128x93x305 (![] : Fin 0 → Fin S4x128x93x305.rank)
  reducesTo_S4x128x93x305_S_d0_1_2_3 : S4x128x93x305.ReducesTo [0, 1, 2, 3] S_
  bcast_S_S4x128x47x153 : S_.BroadcastsInDim S4x128x47x153 (![] : Fin 0 → Fin S4x128x47x153.rank)
  reducesTo_S4x128x47x153_S_d0_1_2_3 : S4x128x47x153.ReducesTo [0, 1, 2, 3] S_
  bcast_S_S4x128x24x77 : S_.BroadcastsInDim S4x128x24x77 (![] : Fin 0 → Fin S4x128x24x77.rank)
  reducesTo_S4x128x24x77_S_d0_1_2_3 : S4x128x24x77.ReducesTo [0, 1, 2, 3] S_
  bcast_S_S256x83 : S_.BroadcastsInDim S256x83 (![] : Fin 0 → Fin S256x83.rank)
  reducesTo_S256x83_S_d0_1 : S256x83.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x83 .f32) (main_arg5 : FVec F S256 .f32) (main_v13 : IVec S_ 1) (main_v16 : IVec S4x128x24x77 1) : IVec S_ 1 :=
  let main_c_5 : IVec S_ 1 := constantI S_ 1 1#1
  let main_v17 : IVec S_ 1 := (fun x v => Host.reduce IntOp.andi x v reducesTo_S4x128x24x77_S_d0_1_2_3 h_S_) main_v16 main_c_5
  let main_v18 : IVec S_ 1 := andi main_v13 main_v17
  let main_v19 : FVec F S256x83 .f32 := Host.absf main_arg4
  let main_cst_6 : FVec F S_ .f32 := constant S_ .f32 0x7F800000#32
  let main_v20 : FVec F S256x83 .f32 := broadcastInDim S256x83 ![] bcast_S_S256x83 main_cst_6
  let main_v21 : IVec S256x83 1 := cmpf .olt main_v19 main_v20
  let main_c_7 : IVec S_ 1 := constantI S_ 1 1#1
  let main_v22 : IVec S_ 1 := (fun x v => Host.reduce IntOp.andi x v reducesTo_S256x83_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4x512x2 .f32) (main_arg1 : FVec F S4x128x93x305 .f32) (main_arg2 : FVec F S4x128x47x153 .f32) (main_arg3 : FVec F S4x128x24x77 .f32) (main_arg4 : FVec F S256x83 .f32) (main_arg5 : FVec F S256 .f32) : IVec S_ 1 :=
  let main_v0 : FVec F S4x512x2 .f32 := Host.absf main_arg0
  let main_cst : FVec F S_ .f32 := constant S_ .f32 0x7F800000#32
  let main_v1 : FVec F S4x512x2 .f32 := broadcastInDim S4x512x2 ![] bcast_S_S4x512x2 main_cst
  let main_v2 : IVec S4x512x2 1 := cmpf .olt main_v0 main_v1
  let main_c : IVec S_ 1 := constantI S_ 1 1#1
  let main_v3 : IVec S_ 1 := (fun x v => Host.reduce IntOp.andi x v reducesTo_S4x512x2_S_d0_1_2 h_S_) main_v2 main_c
  let main_v4 : FVec F S4x128x93x305 .f32 := Host.absf main_arg1
  let main_cst_0 : FVec F S_ .f32 := constant S_ .f32 0x7F800000#32
  let main_v5 : FVec F S4x128x93x305 .f32 := broadcastInDim S4x128x93x305 ![] bcast_S_S4x128x93x305 main_cst_0
  let main_v6 : IVec S4x128x93x305 1 := cmpf .olt main_v4 main_v5
  let main_c_1 : IVec S_ 1 := constantI S_ 1 1#1
  let main_v7 : IVec S_ 1 := (fun x v => Host.reduce IntOp.andi x v reducesTo_S4x128x93x305_S_d0_1_2_3 h_S_) main_v6 main_c_1
  let main_v8 : IVec S_ 1 := andi main_v3 main_v7
  let main_v9 : FVec F S4x128x47x153 .f32 := Host.absf main_arg2
  let main_cst_2 : FVec F S_ .f32 := constant S_ .f32 0x7F800000#32
  let main_v10 : FVec F S4x128x47x153 .f32 := broadcastInDim S4x128x47x153 ![] bcast_S_S4x128x47x153 main_cst_2
  let main_v11 : IVec S4x128x47x153 1 := cmpf .olt main_v9 main_v10
  let main_c_3 : IVec S_ 1 := constantI S_ 1 1#1
  let main_v12 : IVec S_ 1 := (fun x v => Host.reduce IntOp.andi x v reducesTo_S4x128x47x153_S_d0_1_2_3 h_S_) main_v11 main_c_3
  let main_v13 : IVec S_ 1 := andi main_v8 main_v12
  let main_v14 : FVec F S4x128x24x77 .f32 := Host.absf main_arg3
  let main_cst_4 : FVec F S_ .f32 := constant S_ .f32 0x7F800000#32
  let main_v15 : FVec F S4x128x24x77 .f32 := broadcastInDim S4x128x24x77 ![] bcast_S_S4x128x24x77 main_cst_4
  let main_v16 : IVec S4x128x24x77 1 := cmpf .olt main_v14 main_v15
  fn_part1 (F := F) main_arg4 main_arg5 main_v13 main_v16
-- ==== Kernel.lean ====
abbrev S4x512x2 : Shape := ⟨3, ![4, 512, 2]⟩
abbrev S4x128x93x305 : Shape := ⟨4, ![4, 128, 93, 305]⟩
abbrev S4x128x47x153 : Shape := ⟨4, ![4, 128, 47, 153]⟩
abbrev S4x128x24x77 : Shape := ⟨4, ![4, 128, 24, 77]⟩
abbrev S256x83 : Shape := ⟨2, ![256, 83]⟩
abbrev S256 : Shape := ⟨1, ![256]⟩
abbrev S7 : Shape := ⟨1, ![7]⟩
abbrev S_ : Shape := ⟨0, ![]⟩
abbrev S7x7 : Shape := ⟨2, ![7, 7]⟩
abbrev S49 : Shape := ⟨1, ![49]⟩
abbrev S4x512x1 : Shape := ⟨3, ![4, 512, 1]⟩
abbrev S4x512 : Shape := ⟨2, ![4, 512]⟩
abbrev S1x1x49 : Shape := ⟨3, ![1, 1, 49]⟩
abbrev S4x512x49 : Shape := ⟨3, ![4, 512, 49]⟩
abbrev S4x1x25088 : Shape := ⟨3, ![4, 1, 25088]⟩
abbrev S4x128x28365 : Shape := ⟨3, ![4, 128, 28365]⟩
abbrev S4x128x25088 : Shape := ⟨3, ![4, 128, 25088]⟩
abbrev S4x128x25088x1 : Shape := ⟨4, ![4, 128, 25088, 1]⟩
abbrev S1 : Shape := ⟨1, ![1]⟩
abbrev S1x1x1x1 : Shape := ⟨4, ![1, 1, 1, 1]⟩
abbrev S4x128x512x49 : Shape := ⟨4, ![4, 128, 512, 49]⟩
abbrev S5 : Shape := ⟨1, ![5]⟩
abbrev S5x5 : Shape := ⟨2, ![5, 5]⟩
abbrev S25 : Shape := ⟨1, ![25]⟩
abbrev S1x1x25 : Shape := ⟨3, ![1, 1, 25]⟩
abbrev S4x512x25 : Shape := ⟨3, ![4, 512, 25]⟩
abbrev S4x1x12800 : Shape := ⟨3, ![4, 1, 12800]⟩
abbrev S4x128x7191 : Shape := ⟨3, ![4, 128, 7191]⟩
abbrev S4x128x12800 : Shape := ⟨3, ![4, 128, 12800]⟩
abbrev S4x128x12800x1 : Shape := ⟨4, ![4, 128, 12800, 1]⟩
abbrev S4x128x512x25 : Shape := ⟨4, ![4, 128, 512, 25]⟩
abbrev S3 : Shape := ⟨1, ![3]⟩
abbrev S3x3 : Shape := ⟨2, ![3, 3]⟩
abbrev S9 : Shape := ⟨1, ![9]⟩
abbrev S1x1x9 : Shape := ⟨3, ![1, 1, 9]⟩
abbrev S4x512x9 : Shape := ⟨3, ![4, 512, 9]⟩
abbrev S4x1x4608 : Shape := ⟨3, ![4, 1, 4608]⟩
abbrev S4x128x1848 : Shape := ⟨3, ![4, 128, 1848]⟩
abbrev S4x128x4608 : Shape := ⟨3, ![4, 128, 4608]⟩
abbrev S4x128x4608x1 : Shape := ⟨4, ![4, 128, 4608, 1]⟩
abbrev S4x128x512x9 : Shape := ⟨4, ![4, 128, 512, 9]⟩
abbrev S4x128x512x83 : Shape := ⟨4, ![4, 128, 512, 83]⟩
abbrev S83x256 : Shape := ⟨2, ![83, 256]⟩
abbrev S1x256 : Shape := ⟨2, ![1, 256]⟩
abbrev S262144x256 : Shape := ⟨2, ![262144, 256]⟩
abbrev S1x128x32x83 : Shape := ⟨4, ![1, 128, 32, 83]⟩
abbrev S4096x256 : Shape := ⟨2, ![4096, 256]⟩
abbrev S128x32x83 : Shape := ⟨3, ![128, 32, 83]⟩
abbrev S4096x83 : Shape := ⟨2, ![4096, 83]⟩
abbrev S128x32x256 : Shape := ⟨3, ![128, 32, 256]⟩
abbrev S32x128x256 : Shape := ⟨3, ![32, 128, 256]⟩
abbrev S4x128x512x256 : Shape := ⟨4, ![4, 128, 512, 256]⟩

abbrev nBuf : Space → Nat
  | .hbm => 299
  | .vmem => 6
  | .smem => 0
  | _ => 0

abbrev hbmTy0_0 (i : Nat) : BufTy := match i % 128 with
  | 0 => ⟨S4x512x2, .f32⟩
  | 1 => ⟨S4x128x93x305, .f32⟩
  | 2 => ⟨S4x128x47x153, .f32⟩
  | 3 => ⟨S4x128x24x77, .f32⟩
  | 4 => ⟨S256x83, .f32⟩
  | 5 => ⟨S256, .f32⟩
  | 6 => ⟨S7, .i32⟩
  | 7 => ⟨S_, .i32⟩
  | 8 => ⟨S7, .i32⟩
  | 9 => ⟨S7, .i32⟩
  | 10 => ⟨S7x7, .i32⟩
  | 11 => ⟨S7x7, .i32⟩
  | 12 => ⟨S49, .i32⟩
  | 13 => ⟨S49, .f32⟩
  | 14 => ⟨S49, .i32⟩
  | 15 => ⟨S49, .f32⟩
  | 16 => ⟨S4x512x1, .f32⟩
  | 17 => ⟨S4x512, .f32⟩
  | 18 => ⟨S_, .f32⟩
  | 19 => ⟨S4x512, .f32⟩
  | 20 => ⟨S4x512, .f32⟩
  | 21 => ⟨S_, .i32⟩
  | 22 => ⟨S_, .i32⟩
  | 23 => ⟨S_, .f32⟩
  | 24 => ⟨S4x512, .f32⟩
  | 25 => ⟨S4x512, .f32⟩
  | 26 => ⟨S_, .f32⟩
  | 27 => ⟨S4x512, .f32⟩
  | 28 => ⟨S4x512, .f32⟩
  | 29 => ⟨S4x512x1, .f32⟩
  | 30 => ⟨S4x512, .f32⟩
  | 31 => ⟨S_, .f32⟩
  | 32 => ⟨S4x512, .f32⟩
  | 33 => ⟨S4x512, .f32⟩
  | 34 => ⟨S_, .i32⟩
  | 35 => ⟨S_, .i32⟩
  | 36 => ⟨S_, .f32⟩
  | 37 => ⟨S4x512, .f32⟩
  | 38 => ⟨S4x512, .f32⟩
  | 39 => ⟨S_, .f32⟩
  | 40 => ⟨S4x512, .f32⟩
  | 41 => ⟨S4x512, .f32⟩
  | 42 => ⟨S4x512x1, .f32⟩
  | 43 => ⟨S1x1x49, .f32⟩
  | 44 => ⟨S4x512x49, .f32⟩
  | 45 => ⟨S4x512x49, .f32⟩
  | 46 => ⟨S4x512x49, .f32⟩
  | 47 => ⟨S_, .i32⟩
  | 48 => ⟨S_, .i32⟩
  | 49 => ⟨S_, .f32⟩
  | 50 => ⟨S4x512x49, .f32⟩
  | 51 => ⟨S4x512x49, .f32⟩
  | 52 => ⟨S_, .f32⟩
  | 53 => ⟨S4x512x49, .f32⟩
  | 54 => ⟨S4x512x49, .f32⟩
  | 55 => ⟨S4x512x49, .f32⟩
  | 56 => ⟨S4x512x49, .i32⟩
  | 57 => ⟨S4x512x1, .f32⟩
  | 58 => ⟨S1x1x49, .f32⟩
  | 59 => ⟨S4x512x49, .f32⟩
  | 60 => ⟨S4x512x49, .f32⟩
  | 61 => ⟨S4x512x49, .f32⟩
  | 62 => ⟨S_, .i32⟩
  | 63 => ⟨S_, .i32⟩
  | 64 => ⟨S_, .f32⟩
  | 65 => ⟨S4x512x49, .f32⟩
  | 66 => ⟨S4x512x49, .f32⟩
  | 67 => ⟨S_, .f32⟩
  | 68 => ⟨S4x512x49, .f32⟩
  | 69 => ⟨S4x512x49, .f32⟩
  | 70 => ⟨S4x512x49, .f32⟩
  | 71 => ⟨S4x512x49, .i32⟩
  | 72 => ⟨S_, .i32⟩
  | 73 => ⟨S4x512x49, .i32⟩
  | 74 => ⟨S4x512x49, .i32⟩
  | 75 => ⟨S4x512x49, .i32⟩
  | 76 => ⟨S4x1x25088, .i32⟩
  | 77 => ⟨S4x128x28365, .f32⟩
  | 78 => ⟨S4x128x25088, .i32⟩
  | 79 => ⟨S_, .i32⟩
  | 80 => ⟨S4x128x25088, .i32⟩
  | 81 => ⟨S4x128x25088, .i1⟩
  | 82 => ⟨S_, .i32⟩
  | 83 => ⟨S4x128x25088, .i32⟩
  | 84 => ⟨S4x128x25088, .i32⟩
  | 85 => ⟨S4x128x25088, .i32⟩
  | 86 => ⟨S4x128x25088x1, .i32⟩
  | 87 => ⟨S1, .i32⟩
  | 88 => ⟨S_, .i32⟩
  | 89 => ⟨S4x128x25088x1, .i32⟩
  | 90 => ⟨S4x128x25088x1, .i1⟩
  | 91 => ⟨S1x1x1x1, .i32⟩
  | 92 => ⟨S4x128x25088x1, .i32⟩
  | 93 => ⟨S4x128x25088x1, .i1⟩
  | 94 => ⟨S4x128x25088x1, .i1⟩
  | 95 => ⟨S_, .i1⟩
  | 96 => ⟨S4x128x25088, .i1⟩
  | 97 => ⟨S4x128x25088, .f32⟩
  | 98 => ⟨S_, .f32⟩
  | 99 => ⟨S4x128x25088, .f32⟩
  | 100 => ⟨S4x128x25088, .f32⟩
  | 101 => ⟨S4x128x512x49, .f32⟩
  | 102 => ⟨S5, .i32⟩
  | 103 => ⟨S_, .i32⟩
  | 104 => ⟨S5, .i32⟩
  | 105 => ⟨S5, .i32⟩
  | 106 => ⟨S5x5, .i32⟩
  | 107 => ⟨S5x5, .i32⟩
  | 108 => ⟨S25, .i32⟩
  | 109 => ⟨S25, .f32⟩
  | 110 => ⟨S25, .i32⟩
  | 111 => ⟨S25, .f32⟩
  | 112 => ⟨S4x512x1, .f32⟩
  | 113 => ⟨S4x512, .f32⟩
  | 114 => ⟨S_, .f32⟩
  | 115 => ⟨S4x512, .f32⟩
  | 116 => ⟨S4x512, .f32⟩
  | 117 => ⟨S_, .i32⟩
  | 118 => ⟨S_, .i32⟩
  | 119 => ⟨S_, .f32⟩
  | 120 => ⟨S4x512, .f32⟩
  | 121 => ⟨S4x512, .f32⟩
  | 122 => ⟨S_, .f32⟩
  | 123 => ⟨S4x512, .f32⟩
  | 124 => ⟨S4x512, .f32⟩
  | 125 => ⟨S4x512x1, .f32⟩
  | 126 => ⟨S4x512, .f32⟩
  | 127 => ⟨S_, .f32⟩
  | _ => ⟨S4x512x2, .f32⟩

abbrev hbmTy0_1 (i : Nat) : BufTy := match i % 128 with
  | 0 => ⟨S4x512, .f32⟩
  | 1 => ⟨S4x512, .f32⟩
  | 2 => ⟨S_, .i32⟩
  | 3 => ⟨S_, .i32⟩
  | 4 => ⟨S_, .f32⟩
  | 5 => ⟨S4x512, .f32⟩
  | 6 => ⟨S4x512, .f32⟩
  | 7 => ⟨S_, .f32⟩
  | 8 => ⟨S4x512, .f32⟩
  | 9 => ⟨S4x512, .f32⟩
  | 10 => ⟨S4x512x1, .f32⟩
  | 11 => ⟨S1x1x25, .f32⟩
  | 12 => ⟨S4x512x25, .f32⟩
  | 13 => ⟨S4x512x25, .f32⟩
  | 14 => ⟨S4x512x25, .f32⟩
  | 15 => ⟨S_, .i32⟩
  | 16 => ⟨S_, .i32⟩
  | 17 => ⟨S_, .f32⟩
  | 18 => ⟨S4x512x25, .f32⟩
  | 19 => ⟨S4x512x25, .f32⟩
  | 20 => ⟨S_, .f32⟩
  | 21 => ⟨S4x512x25, .f32⟩
  | 22 => ⟨S4x512x25, .f32⟩
  | 23 => ⟨S4x512x25, .f32⟩
  | 24 => ⟨S4x512x25, .i32⟩
  | 25 => ⟨S4x512x1, .f32⟩
  | 26 => ⟨S1x1x25, .f32⟩
  | 27 => ⟨S4x512x25, .f32⟩
  | 28 => ⟨S4x512x25, .f32⟩
  | 29 => ⟨S4x512x25, .f32⟩
  | 30 => ⟨S_, .i32⟩
  | 31 => ⟨S_, .i32⟩
  | 32 => ⟨S_, .f32⟩
  | 33 => ⟨S4x512x25, .f32⟩
  | 34 => ⟨S4x512x25, .f32⟩
  | 35 => ⟨S_, .f32⟩
  | 36 => ⟨S4x512x25, .f32⟩
  | 37 => ⟨S4x512x25, .f32⟩
  | 38 => ⟨S4x512x25, .f32⟩
  | 39 => ⟨S4x512x25, .i32⟩
  | 40 => ⟨S_, .i32⟩
  | 41 => ⟨S4x512x25, .i32⟩
  | 42 => ⟨S4x512x25, .i32⟩
  | 43 => ⟨S4x512x25, .i32⟩
  | 44 => ⟨S4x1x12800, .i32⟩
  | 45 => ⟨S4x128x7191, .f32⟩
  | 46 => ⟨S4x128x12800, .i32⟩
  | 47 => ⟨S_, .i32⟩
  | 48 => ⟨S4x128x12800, .i32⟩
  | 49 => ⟨S4x128x12800, .i1⟩
  | 50 => ⟨S_, .i32⟩
  | 51 => ⟨S4x128x12800, .i32⟩
  | 52 => ⟨S4x128x12800, .i32⟩
  | 53 => ⟨S4x128x12800, .i32⟩
  | 54 => ⟨S4x128x12800x1, .i32⟩
  | 55 => ⟨S1, .i32⟩
  | 56 => ⟨S_, .i32⟩
  | 57 => ⟨S4x128x12800x1, .i32⟩
  | 58 => ⟨S4x128x12800x1, .i1⟩
  | 59 => ⟨S1x1x1x1, .i32⟩
  | 60 => ⟨S4x128x12800x1, .i32⟩
  | 61 => ⟨S4x128x12800x1, .i1⟩
  | 62 => ⟨S4x128x12800x1, .i1⟩
  | 63 => ⟨S_, .i1⟩
  | 64 => ⟨S4x128x12800, .i1⟩
  | 65 => ⟨S4x128x12800, .f32⟩
  | 66 => ⟨S_, .f32⟩
  | 67 => ⟨S4x128x12800, .f32⟩
  | 68 => ⟨S4x128x12800, .f32⟩
  | 69 => ⟨S4x128x512x25, .f32⟩
  | 70 => ⟨S3, .i32⟩
  | 71 => ⟨S_, .i32⟩
  | 72 => ⟨S3, .i32⟩
  | 73 => ⟨S3, .i32⟩
  | 74 => ⟨S3x3, .i32⟩
  | 75 => ⟨S3x3, .i32⟩
  | 76 => ⟨S9, .i32⟩
  | 77 => ⟨S9, .f32⟩
  | 78 => ⟨S9, .i32⟩
  | 79 => ⟨S9, .f32⟩
  | 80 => ⟨S4x512x1, .f32⟩
  | 81 => ⟨S4x512, .f32⟩
  | 82 => ⟨S_, .f32⟩
  | 83 => ⟨S4x512, .f32⟩
  | 84 => ⟨S4x512, .f32⟩
  | 85 => ⟨S_, .i32⟩
  | 86 => ⟨S_, .i32⟩
  | 87 => ⟨S_, .f32⟩
  | 88 => ⟨S4x512, .f32⟩
  | 89 => ⟨S4x512, .f32⟩
  | 90 => ⟨S_, .f32⟩
  | 91 => ⟨S4x512, .f32⟩
  | 92 => ⟨S4x512, .f32⟩
  | 93 => ⟨S4x512x1, .f32⟩
  | 94 => ⟨S4x512, .f32⟩
  | 95 => ⟨S_, .f32⟩
  | 96 => ⟨S4x512, .f32⟩
  | 97 => ⟨S4x512, .f32⟩
  | 98 => ⟨S_, .i32⟩
  | 99 => ⟨S_, .i32⟩
  | 100 => ⟨S_, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S4x512x1, .f32⟩
  | 107 => ⟨S1x1x9, .f32⟩
  | 108 => ⟨S4x512x9, .f32⟩
  | 109 => ⟨S4x512x9, .f32⟩
  | 110 => ⟨S4x512x9, .f32⟩
  | 111 => ⟨S_, .i32⟩
  | 112 => ⟨S_, .i32⟩
  | 113 => ⟨S_, .f32⟩
  | 114 => ⟨S4x512x9, .f32⟩
  | 115 => ⟨S4x512x9, .f32⟩
  | 116 => ⟨S_, .f32⟩
  | 117 => ⟨S4x512x9, .f32⟩
  | 118 => ⟨S4x512x9, .f32⟩
  | 119 => ⟨S4x512x9, .f32⟩
  | 120 => ⟨S4x512x9, .i32⟩
  | 121 => ⟨S4x512x1, .f32⟩
  | 122 => ⟨S1x1x9, .f32⟩
  | 123 => ⟨S4x512x9, .f32⟩
  | 124 => ⟨S4x512x9, .f32⟩
  | 125 => ⟨S4x512x9, .f32⟩
  | 126 => ⟨S_, .i32⟩
  | 127 => ⟨S_, .i32⟩
  | _ => ⟨S4x512x2, .f32⟩

abbrev hbmTy0_2 (i : Nat) : BufTy := match i % 128 with
  | 0 => ⟨S_, .f32⟩
  | 1 => ⟨S4x512x9, .f32⟩
  | 2 => ⟨S4x512x9, .f32⟩
  | 3 => ⟨S_, .f32⟩
  | 4 => ⟨S4x512x9, .f32⟩
  | 5 => ⟨S4x512x9, .f32⟩
  | 6 => ⟨S4x512x9, .f32⟩
  | 7 => ⟨S4x512x9, .i32⟩
  | 8 => ⟨S_, .i32⟩
  | 9 => ⟨S4x512x9, .i32⟩
  | 10 => ⟨S4x512x9, .i32⟩
  | 11 => ⟨S4x512x9, .i32⟩
  | 12 => ⟨S4x1x4608, .i32⟩
  | 13 => ⟨S4x128x1848, .f32⟩
  | 14 => ⟨S4x128x4608, .i32⟩
  | 15 => ⟨S_, .i32⟩
  | 16 => ⟨S4x128x4608, .i32⟩
  | 17 => ⟨S4x128x4608, .i1⟩
  | 18 => ⟨S_, .i32⟩
  | 19 => ⟨S4x128x4608, .i32⟩
  | 20 => ⟨S4x128x4608, .i32⟩
  | 21 => ⟨S4x128x4608, .i32⟩
  | 22 => ⟨S4x128x4608x1, .i32⟩
  | 23 => ⟨S1, .i32⟩
  | 24 => ⟨S_, .i32⟩
  | 25 => ⟨S4x128x4608x1, .i32⟩
  | 26 => ⟨S4x128x4608x1, .i1⟩
  | 27 => ⟨S1x1x1x1, .i32⟩
  | 28 => ⟨S4x128x4608x1, .i32⟩
  | 29 => ⟨S4x128x4608x1, .i1⟩
  | 30 => ⟨S4x128x4608x1, .i1⟩
  | 31 => ⟨S_, .i1⟩
  | 32 => ⟨S4x128x4608, .i1⟩
  | 33 => ⟨S4x128x4608, .f32⟩
  | 34 => ⟨S_, .f32⟩
  | 35 => ⟨S4x128x4608, .f32⟩
  | 36 => ⟨S4x128x4608, .f32⟩
  | 37 => ⟨S4x128x512x9, .f32⟩
  | 38 => ⟨S4x128x512x83, .f32⟩
  | 39 => ⟨S83x256, .f32⟩
  | 40 => ⟨S1x256, .f32⟩
  | 41 => ⟨S262144x256, .f32⟩
  | 42 => ⟨S4x128x512x256, .f32⟩
  | _ => ⟨S4x512x2, .f32⟩

abbrev hbmTy (i : Nat) : BufTy := match i / 128 with
  | 0 => hbmTy0_0 i
  | 1 => hbmTy0_1 i
  | 2 => hbmTy0_2 i
  | _ => ⟨S4x512x2, .f32⟩

abbrev bufTy : (tb : Table) → Fin (tcTables nBuf tb) → BufTy
  | .hbm, ⟨i, _⟩ => hbmTy i
  | .local _ .vmem, ⟨0, _⟩ => ⟨S1x128x32x83, .f32⟩
  | .local _ .vmem, ⟨1, _⟩ => ⟨S1x128x32x83, .f32⟩
  | .local _ .vmem, ⟨2, _⟩ => ⟨S83x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S4x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_9 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_cst : Ref sig .tc := ⟨.hbm, 98, rfl⟩
abbrev main_call4_v14 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_10 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_v55 : Ref sig .tc := ⟨.hbm, 116, rfl⟩
abbrev main_c_12 : Ref sig .tc := ⟨.hbm, 117, rfl⟩
abbrev main_c_13 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_14 : Ref sig .tc := ⟨.hbm, 127, rfl⟩
abbrev main_v59 : Ref sig .tc := ⟨.hbm, 128, rfl⟩
abbrev main_v60 : Ref sig .tc := ⟨.hbm, 129, rfl⟩
abbrev main_c_15 : Ref sig .tc := ⟨.hbm, 130, rfl⟩
abbrev main_c_16 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_17 : Ref sig .tc := ⟨.hbm, 143, rfl⟩
abbrev main_c_18 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_c_19 : Ref sig .tc := ⟨.hbm, 158, rfl⟩
abbrev main_c_20 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_c_21 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_call9_c : Ref sig .tc := ⟨.hbm, 175, rfl⟩
abbrev main_call9_v0 : Ref sig .tc := ⟨.hbm, 176, rfl⟩
abbrev main_call9_v1 : Ref sig .tc := ⟨.hbm, 177, rfl⟩
abbrev main_call9_c_0 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_c_1 : Ref sig .tc := ⟨.hbm, 183, rfl⟩
abbrev main_call9_c_2 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_v9 : Ref sig .tc := ⟨.hbm, 188, rfl⟩
abbrev main_call9_v10 : Ref sig .tc := ⟨.hbm, 189, rfl⟩
abbrev main_call9_v11 : Ref sig .tc := ⟨.hbm, 190, rfl⟩
abbrev main_call9_c_3 : Ref sig .tc := ⟨.hbm, 191, rfl⟩
abbrev main_call9_v12 : Ref sig .tc := ⟨.hbm, 192, rfl⟩
abbrev main_call9_v13 : Ref sig .tc := ⟨.hbm, 193, rfl⟩
abbrev main_call9_cst : Ref sig .tc := ⟨.hbm, 194, rfl⟩
abbrev main_call9_v14 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_c_22 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_cst_23 : Ref sig .tc := ⟨.hbm, 210, rfl⟩
abbrev main_v97 : Ref sig .tc := ⟨.hbm, 211, rfl⟩
abbrev main_v98 : Ref sig .tc := ⟨.hbm, 212, rfl⟩
abbrev main_c_24 : Ref sig .tc := ⟨.hbm, 213, rfl⟩
abbrev main_c_25 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_cst_26 : Ref sig .tc := ⟨.hbm, 223, rfl⟩
abbrev main_v102 : Ref sig .tc := ⟨.hbm, 224, rfl⟩
abbrev main_v103 : Ref sig .tc := ⟨.hbm, 225, rfl⟩
abbrev main_c_27 : Ref sig .tc := ⟨.hbm, 226, rfl⟩
abbrev main_c_28 : Ref sig .tc := ⟨.hbm, 227, rfl⟩
abbrev main_call11_v0 : Ref sig .tc := ⟨.hbm, 228, rfl⟩
abbrev main_call11_v1 : Ref sig .tc := ⟨.hbm, 229, rfl⟩
abbrev main_call11_v2 : Ref sig .tc := ⟨.hbm, 230, rfl⟩
abbrev main_call11_v3 : Ref sig .tc := ⟨.hbm, 231, rfl⟩
abbrev main_call11_v4 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_c_29 : Ref sig .tc := ⟨.hbm, 239, rfl⟩
abbrev main_c_30 : Ref sig .tc := ⟨.hbm, 240, rfl⟩
abbrev main_call12_v0 : Ref sig .tc := ⟨.hbm, 241, rfl⟩
abbrev main_call12_v1 : Ref sig .tc := ⟨.hbm, 242, rfl⟩
abbrev main_call12_v2 : Ref sig .tc := ⟨.hbm, 243, rfl⟩
abbrev main_call12_v3 : Ref sig .tc := ⟨.hbm, 244, rfl⟩
abbrev main_call12_v4 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_c_31 : Ref sig .tc := ⟨.hbm, 254, rfl⟩
abbrev main_c_32 : Ref sig .tc := ⟨.hbm, 255, rfl⟩
abbrev main_call13_v0 : Ref sig .tc := ⟨.hbm, 256, rfl⟩
abbrev main_call13_v1 : Ref sig .tc := ⟨.hbm, 257, rfl⟩
abbrev main_call13_v2 : Ref sig .tc := ⟨.hbm, 258, rfl⟩
abbrev main_call13_v3 : Ref sig .tc := ⟨.hbm, 259, rfl⟩
abbrev main_call13_v4 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_c_33 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_v124 : Ref sig .tc := ⟨.hbm, 268, rfl⟩
abbrev main_v125 : Ref sig .tc := ⟨.hbm, 269, rfl⟩
abbrev main_v126 : Ref sig .tc := ⟨.hbm, 270, rfl⟩
abbrev main_call14_c : Ref sig .tc := ⟨.hbm, 271, rfl⟩
abbrev main_call14_v0 : Ref sig .tc := ⟨.hbm, 272, rfl⟩
abbrev main_call14_v1 : Ref sig .tc := ⟨.hbm, 273, rfl⟩
abbrev main_call14_c_0 : Ref sig .tc := ⟨.hbm, 274, rfl⟩
abbrev main_call14_v2 : Ref sig .tc := ⟨.hbm, 275, rfl⟩
abbrev main_call14_v3 : Ref sig .tc := ⟨.hbm, 276, rfl⟩
abbrev main_call14_v4 : Ref sig .tc := ⟨.hbm, 277, rfl⟩
abbrev main_call14_v5 : Ref sig .tc := ⟨.hbm, 278, rfl⟩
abbrev main_call14_c_1 : Ref sig .tc := ⟨.hbm, 279, rfl⟩
abbrev main_call14_c_2 : Ref sig .tc := ⟨.hbm, 280, rfl⟩
abbrev main_call14_v6 : Ref sig .tc := ⟨.hbm, 281, rfl⟩
abbrev main_call14_v7 : Ref sig .tc := ⟨.hbm, 282, rfl⟩
abbrev main_call14_v8 : Ref sig .tc := ⟨.hbm, 283, rfl⟩
abbrev main_call14_v9 : Ref sig .tc := ⟨.hbm, 284, rfl⟩
abbrev main_call14_v10 : Ref sig .tc := ⟨.hbm, 285, rfl⟩
abbrev main_call14_v11 : Ref sig .tc := ⟨.hbm, 286, rfl⟩
abbrev main_call14_c_3 : Ref sig .tc := ⟨.hbm, 287, rfl⟩
abbrev main_call14_v12 : Ref sig .tc := ⟨.hbm, 288, rfl⟩
abbrev main_call14_v13 : Ref sig .tc := ⟨.hbm, 289, rfl⟩
abbrev main_call14_cst : Ref sig .tc := ⟨.hbm, 290, rfl⟩
abbrev main_call14_v14 : Ref sig .tc := ⟨.hbm, 291, rfl⟩
abbrev main_v127 : Ref sig .tc := ⟨.hbm, 292, rfl⟩
abbrev main_v128 : Ref sig .tc := ⟨.hbm, 293, rfl⟩
abbrev main_v129 : Ref sig .tc := ⟨.hbm, 294, rfl⟩
abbrev main_v130 : Ref sig .tc := ⟨.hbm, 295, rfl⟩
abbrev main_v131 : Ref sig .tc := ⟨.hbm, 296, rfl⟩
abbrev main_v132 : Ref sig .tc := ⟨.hbm, 297, rfl⟩
abbrev main_v133 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x128x32x83 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S83x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S7 : S_.BroadcastsInDim S7 (![] : Fin 0 → Fin S7.rank)
  bcast_S7_S7x7_0 : S7.BroadcastsInDim S7x7 (![0] : Fin 1 → Fin S7x7.rank)
  bcast_S7_S7x7_1 : S7.BroadcastsInDim S7x7 (![1] : Fin 1 → Fin S7x7.rank)
  shapeCasts_S7x7_S49 : S7x7.ShapeCasts S49
  slices_S4x512x2_S4x512x1_0_0_0 : S4x512x2.Slices ![0, 0, 0] S4x512x1
  shapeCasts_S4x512x1_S4x512 : S4x512x1.ShapeCasts S4x512
  bcast_S_S4x512 : S_.BroadcastsInDim S4x512 (![] : Fin 0 → Fin S4x512.rank)
  slices_S4x512x2_S4x512x1_0_0_1 : S4x512x2.Slices ![0, 0, 1] S4x512x1
  bcast_S4x512_S4x512x1_0_1 : S4x512.BroadcastsInDim S4x512x1 (![0, 1] : Fin 2 → Fin S4x512x1.rank)
  bcast_S49_S1x1x49_2 : S49.BroadcastsInDim S1x1x49 (![2] : Fin 1 → Fin S1x1x49.rank)
  bcast_S4x512x1_S4x512x49_0_1_2 : S4x512x1.BroadcastsInDim S4x512x49 (![0, 1, 2] : Fin 3 → Fin S4x512x49.rank)
  bcast_S1x1x49_S4x512x49_0_1_2 : S1x1x49.BroadcastsInDim S4x512x49 (![0, 1, 2] : Fin 3 → Fin S4x512x49.rank)
  bcast_S_S4x512x49 : S_.BroadcastsInDim S4x512x49 (![] : Fin 0 → Fin S4x512x49.rank)
  shapeCasts_S4x512x49_S4x1x25088 : S4x512x49.ShapeCasts S4x1x25088
  shapeCasts_S4x128x93x305_S4x128x28365 : S4x128x93x305.ShapeCasts S4x128x28365
  bcast_S4x1x25088_S4x128x25088_0_1_2 : S4x1x25088.BroadcastsInDim S4x128x25088 (![0, 1, 2] : Fin 3 → Fin S4x128x25088.rank)
  bcast_S_S4x128x25088 : S_.BroadcastsInDim S4x128x25088 (![] : Fin 0 → Fin S4x128x25088.rank)
  shapeCasts_S4x128x25088_S4x128x25088x1 : S4x128x25088.ShapeCasts S4x128x25088x1
  bcast_S_S4x128x25088x1 : S_.BroadcastsInDim S4x128x25088x1 (![] : Fin 0 → Fin S4x128x25088x1.rank)
  bcast_S1_S1x1x1x1_3 : S1.BroadcastsInDim S1x1x1x1 (![3] : Fin 1 → Fin S1x1x1x1.rank)
  bcast_S1x1x1x1_S4x128x25088x1_0_1_2_3 : S1x1x1x1.BroadcastsInDim S4x128x25088x1 (![0, 1, 2, 3] : Fin 4 → Fin S4x128x25088x1.rank)
  reducesTo_S4x128x25088x1_S4x128x25088_d3 : S4x128x25088x1.ReducesTo [3] S4x128x25088
  h_S_ : 0 < S_.numel
  shapeCasts_S4x128x25088_S4x128x512x49 : S4x128x25088.ShapeCasts S4x128x512x49
  bcast_S_S5 : S_.BroadcastsInDim S5 (![] : Fin 0 → Fin S5.rank)
  bcast_S5_S5x5_0 : S5.BroadcastsInDim S5x5 (![0] : Fin 1 → Fin S5x5.rank)
  bcast_S5_S5x5_1 : S5.BroadcastsInDim S5x5 (![1] : Fin 1 → Fin S5x5.rank)
  shapeCasts_S5x5_S25 : S5x5.ShapeCasts S25
  bcast_S25_S1x1x25_2 : S25.BroadcastsInDim S1x1x25 (![2] : Fin 1 → Fin S1x1x25.rank)
  bcast_S4x512x1_S4x512x25_0_1_2 : S4x512x1.BroadcastsInDim S4x512x25 (![0, 1, 2] : Fin 3 → Fin S4x512x25.rank)
  bcast_S1x1x25_S4x512x25_0_1_2 : S1x1x25.BroadcastsInDim S4x512x25 (![0, 1, 2] : Fin 3 → Fin S4x512x25.rank)
  bcast_S_S4x512x25 : S_.BroadcastsInDim S4x512x25 (![] : Fin 0 → Fin S4x512x25.rank)
  shapeCasts_S4x512x25_S4x1x12800 : S4x512x25.ShapeCasts S4x1x12800
  shapeCasts_S4x128x47x153_S4x128x7191 : S4x128x47x153.ShapeCasts S4x128x7191
  bcast_S4x1x12800_S4x128x12800_0_1_2 : S4x1x12800.BroadcastsInDim S4x128x12800 (![0, 1, 2] : Fin 3 → Fin S4x128x12800.rank)
  bcast_S_S4x128x12800 : S_.BroadcastsInDim S4x128x12800 (![] : Fin 0 → Fin S4x128x12800.rank)
  shapeCasts_S4x128x12800_S4x128x12800x1 : S4x128x12800.ShapeCasts S4x128x12800x1
  bcast_S_S4x128x12800x1 : S_.BroadcastsInDim S4x128x12800x1 (![] : Fin 0 → Fin S4x128x12800x1.rank)
  bcast_S1x1x1x1_S4x128x12800x1_0_1_2_3 : S1x1x1x1.BroadcastsInDim S4x128x12800x1 (![0, 1, 2, 3] : Fin 4 → Fin S4x128x12800x1.rank)
  reducesTo_S4x128x12800x1_S4x128x12800_d3 : S4x128x12800x1.ReducesTo [3] S4x128x12800
  shapeCasts_S4x128x12800_S4x128x512x25 : S4x128x12800.ShapeCasts S4x128x512x25
  bcast_S_S3 : S_.BroadcastsInDim S3 (![] : Fin 0 → Fin S3.rank)
  bcast_S3_S3x3_0 : S3.BroadcastsInDim S3x3 (![0] : Fin 1 → Fin S3x3.rank)
  bcast_S3_S3x3_1 : S3.BroadcastsInDim S3x3 (![1] : Fin 1 → Fin S3x3.rank)
  shapeCasts_S3x3_S9 : S3x3.ShapeCasts S9
  bcast_S9_S1x1x9_2 : S9.BroadcastsInDim S1x1x9 (![2] : Fin 1 → Fin S1x1x9.rank)
  bcast_S4x512x1_S4x512x9_0_1_2 : S4x512x1.BroadcastsInDim S4x512x9 (![0, 1, 2] : Fin 3 → Fin S4x512x9.rank)
  bcast_S1x1x9_S4x512x9_0_1_2 : S1x1x9.BroadcastsInDim S4x512x9 (![0, 1, 2] : Fin 3 → Fin S4x512x9.rank)
  bcast_S_S4x512x9 : S_.BroadcastsInDim S4x512x9 (![] : Fin 0 → Fin S4x512x9.rank)
  shapeCasts_S4x512x9_S4x1x4608 : S4x512x9.ShapeCasts S4x1x4608
  shapeCasts_S4x128x24x77_S4x128x1848 : S4x128x24x77.ShapeCasts S4x128x1848
  bcast_S4x1x4608_S4x128x4608_0_1_2 : S4x1x4608.BroadcastsInDim S4x128x4608 (![0, 1, 2] : Fin 3 → Fin S4x128x4608.rank)
  bcast_S_S4x128x4608 : S_.BroadcastsInDim S4x128x4608 (![] : Fin 0 → Fin S4x128x4608.rank)
  shapeCasts_S4x128x4608_S4x128x4608x1 : S4x128x4608.ShapeCasts S4x128x4608x1
  bcast_S_S4x128x4608x1 : S_.BroadcastsInDim S4x128x4608x1 (![] : Fin 0 → Fin S4x128x4608x1.rank)
  bcast_S1x1x1x1_S4x128x4608x1_0_1_2_3 : S1x1x1x1.BroadcastsInDim S4x128x4608x1 (![0, 1, 2, 3] : Fin 4 → Fin S4x128x4608x1.rank)
  reducesTo_S4x128x4608x1_S4x128x4608_d3 : S4x128x4608x1.ReducesTo [3] S4x128x4608
  shapeCasts_S4x128x4608_S4x128x512x9 : S4x128x4608.ShapeCasts S4x128x512x9
  concatenates_S4x128x512x49_S4x128x512x25_S4x128x512x9_S4x128x512x83_d3 : Shape.Concatenates [S4x128x512x49, S4x128x512x25, S4x128x512x9] S4x128x512x83 3
  transposes_S256x83_S83x256_1_0 : S256x83.Transposes [1, 0] S83x256
  shapeCasts_S256_S1x256 : S256.ShapeCasts S1x256
  inb_S1x128x32x83_S1x128x32x83_0_0_0_0 : ∀ a, (![0, 0, 0, 0] : Fin 4 → Nat) a + S1x128x32x83.size a ≤ S1x128x32x83.size a
  h_S1x128x32x83 : 0 < S1x128x32x83.numel
  shapeCasts_S1x128x32x83_S128x32x83 : S1x128x32x83.ShapeCasts S128x32x83
  bitsLt_bf16_f32 : FTy.bits .bf16 < FTy.bits .f32
  shapeCasts_S128x32x83_S4096x83 : S128x32x83.ShapeCasts S4096x83
  inb_S83x256_S83x256_0_0 : ∀ a, (![0, 0] : Fin 2 → Nat) a + S83x256.size a ≤ S83x256.size a
  h_S83x256 : 0 < S83x256.numel
  shapeCasts_S83x256_S83x256 : S83x256.ShapeCasts S83x256
  shapeCasts_S4096x256_S128x32x256 : S4096x256.ShapeCasts S128x32x256
  transposes_S128x32x256_p1_0_2_S32x128x256 : S128x32x256.Transposes [1, 0, 2] S32x128x256
  shapeCasts_S32x128x256_S4096x256 : S32x128x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S262144x256_S4x128x512x256 : S262144x256.ShapeCasts S4x128x512x256
  gather_S4x128x28365_S4x128x25088x1_S4x128x25088_n_2_01_01_2_3_111_wf : GatherDims.WF S4x128x28365 S4x128x25088x1 S4x128x25088 [] [2] [0, 1] [2] [0, 1] 3 ![1, 1, 1]
  gather_S4x128x7191_S4x128x12800x1_S4x128x12800_n_2_01_01_2_3_111_wf : GatherDims.WF S4x128x7191 S4x128x12800x1 S4x128x12800 [] [2] [0, 1] [2] [0, 1] 3 ![1, 1, 1]
  gather_S4x128x1848_S4x128x4608x1_S4x128x4608_n_2_01_01_2_3_111_wf : GatherDims.WF S4x128x1848 S4x128x4608x1 S4x128x4608 [] [2] [0, 1] [2] [0, 1] 3 ![1, 1, 1]
  dot_S4096x83_S83x256_S4096x256_1_0_0_1_n_n_wf : DotDims.WF S4096x83 S83x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x83.size a ≤ S4x128x512x83.size a
  hwx0_0 : ∀ i : grid0.Coords, EltTy.bits .f32 = 32 ∨ (Rect.block (s := S4x128x512x83) S1x128x32x83.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S83x256.size a ≤ S83x256.size a
  hwx0_1 : ∀ i : grid0.Coords, EltTy.bits .f32 = 32 ∨ (Rect.block (s := S83x256) S83x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def gather_S4x128x28365_S4x128x25088x1_S4x128x25088_n_2_01_01_2_3_111 : GatherDims S4x128x28365 S4x128x25088x1 S4x128x25088 where
  offsetDims := []
  collapsedSliceDims := [2]
  operandBatchingDims := [0, 1]
  startIndicesBatchingDims := [0, 1]
  startIndexMap := [2]
  indexVectorDim := 3
  sliceSizes := ![1, 1, 1]
  wf := gather_S4x128x28365_S4x128x25088x1_S4x128x25088_n_2_01_01_2_3_111_wf
def gather_S4x128x7191_S4x128x12800x1_S4x128x12800_n_2_01_01_2_3_111 : GatherDims S4x128x7191 S4x128x12800x1 S4x128x12800 where
  offsetDims := []
  collapsedSliceDims := [2]
  operandBatchingDims := [0, 1]
  startIndicesBatchingDims := [0, 1]
  startIndexMap := [2]
  indexVectorDim := 3
  sliceSizes := ![1, 1, 1]
  wf := gather_S4x128x7191_S4x128x12800x1_S4x128x12800_n_2_01_01_2_3_111_wf
def gather_S4x128x1848_S4x128x4608x1_S4x128x4608_n_2_01_01_2_3_111 : GatherDims S4x128x1848 S4x128x4608x1 S4x128x4608 where
  offsetDims := []
  collapsedSliceDims := [2]
  operandBatchingDims := [0, 1]
  startIndicesBatchingDims := [0, 1]
  startIndexMap := [2]
  indexVectorDim := 3
  sliceSizes := ![1, 1, 1]
  wf := gather_S4x128x1848_S4x128x4608x1_S4x128x4608_n_2_01_01_2_3_111_wf
def dot_S4096x83_S83x256_S4096x256_1_0_0_1_n_n : DotDims S4096x83 S83x256 S4096x256 where
  lhsContracting := [1]
  rhsContracting := [0]
  lhsNonContracting := [0]
  rhsNonContracting := [1]
  lhsBatch := []
  rhsBatch := []
  wf := dot_S4096x83_S83x256_S4096x256_1_0_0_1_n_n_wf

abbrev win0_0 : Pipeline.Window sig grid0 :=
  Pipeline.Window.ofSpec (Memref.whole main_v129) S1x128x32x83.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v130) S83x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v131) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v132) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x2 : Shape := ⟨3, ![4, 512, 2]⟩
abbrev S4x128x93x305 : Shape := ⟨4, ![4, 128, 93, 305]⟩
abbrev S4x128x47x153 : Shape := ⟨4, ![4, 128, 47, 153]⟩
abbrev S4x128x24x77 : Shape := ⟨4, ![4, 128, 24, 77]⟩
abbrev S256x83 : Shape := ⟨2, ![256, 83]⟩
abbrev S256 : Shape := ⟨1, ![256]⟩
abbrev S7 : Shape := ⟨1, ![7]⟩
abbrev S_ : Shape := ⟨0, ![]⟩
abbrev S7x7 : Shape := ⟨2, ![7, 7]⟩
abbrev S49 : Shape := ⟨1, ![49]⟩
abbrev S4x512x1 : Shape := ⟨3, ![4, 512, 1]⟩
abbrev S4x512 : Shape := ⟨2, ![4, 512]⟩
abbrev S1x1x49 : Shape := ⟨3, ![1, 1, 49]⟩
abbrev S4x512x49 : Shape := ⟨3, ![4, 512, 49]⟩
abbrev S4x1x25088 : Shape := ⟨3, ![4, 1, 25088]⟩
abbrev S4x128x28365 : Shape := ⟨3, ![4, 128, 28365]⟩
abbrev S4x128x25088 : Shape := ⟨3, ![4, 128, 25088]⟩
abbrev S4x128x25088x1 : Shape := ⟨4, ![4, 128, 25088, 1]⟩
abbrev S1 : Shape := ⟨1, ![1]⟩
abbrev S1x1x1x1 : Shape := ⟨4, ![1, 1, 1, 1]⟩
abbrev S4x128x512x49 : Shape := ⟨4, ![4, 128, 512, 49]⟩
abbrev S5 : Shape := ⟨1, ![5]⟩
abbrev S5x5 : Shape := ⟨2, ![5, 5]⟩
abbrev S25 : Shape := ⟨1, ![25]⟩
abbrev S1x1x25 : Shape := ⟨3, ![1, 1, 25]⟩
abbrev S4x512x25 : Shape := ⟨3, ![4, 512, 25]⟩
abbrev S4x1x12800 : Shape := ⟨3, ![4, 1, 12800]⟩
abbrev S4x128x7191 : Shape := ⟨3, ![4, 128, 7191]⟩
abbrev S4x128x12800 : Shape := ⟨3, ![4, 128, 12800]⟩
abbrev S4x128x12800x1 : Shape := ⟨4, ![4, 128, 12800, 1]⟩
abbrev S4x128x512x25 : Shape := ⟨4, ![4, 128, 512, 25]⟩
abbrev S3 : Shape := ⟨1, ![3]⟩
abbrev S3x3 : Shape := ⟨2, ![3, 3]⟩
abbrev S9 : Shape := ⟨1, ![9]⟩
abbrev S1x1x9 : Shape := ⟨3, ![1, 1, 9]⟩
abbrev S4x512x9 : Shape := ⟨3, ![4, 512, 9]⟩
abbrev S4x1x4608 : Shape := ⟨3, ![4, 1, 4608]⟩
abbrev S4x128x1848 : Shape := ⟨3, ![4, 128, 1848]⟩
abbrev S4x128x4608 : Shape := ⟨3, ![4, 128, 4608]⟩
abbrev S4x128x4608x1 : Shape := ⟨4, ![4, 128, 4608, 1]⟩
abbrev S4x128x512x9 : Shape := ⟨4, ![4, 128, 512, 9]⟩
abbrev S4x128x512x83 : Shape := ⟨4, ![4, 128, 512, 83]⟩
abbrev S4x512x128x83 : Shape := ⟨4, ![4, 512, 128, 83]⟩
abbrev S262144x83 : Shape := ⟨2, ![262144, 83]⟩
abbrev S83x256 : Shape := ⟨2, ![83, 256]⟩
abbrev S262144x256 : Shape := ⟨2, ![262144, 256]⟩
abbrev S1x256 : Shape := ⟨2, ![1, 256]⟩
abbrev S4x128x512x256 : Shape := ⟨4, ![4, 128, 512, 256]⟩

abbrev nBuf : Space → Nat
  | .hbm => 303
  | .vmem => 0
  | .smem => 0
  | _ => 0

abbrev hbmTy0_0 (i : Nat) : BufTy := match i % 128 with
  | 0 => ⟨S4x512x2, .f32⟩
  | 1 => ⟨S4x128x93x305, .f32⟩
  | 2 => ⟨S4x128x47x153, .f32⟩
  | 3 => ⟨S4x128x24x77, .f32⟩
  | 4 => ⟨S256x83, .f32⟩
  | 5 => ⟨S256, .f32⟩
  | 6 => ⟨S7, .i32⟩
  | 7 => ⟨S_, .i32⟩
  | 8 => ⟨S7, .i32⟩
  | 9 => ⟨S7, .i32⟩
  | 10 => ⟨S7x7, .i32⟩
  | 11 => ⟨S7x7, .i32⟩
  | 12 => ⟨S49, .i32⟩
  | 13 => ⟨S49, .f32⟩
  | 14 => ⟨S49, .i32⟩
  | 15 => ⟨S49, .f32⟩
  | 16 => ⟨S4x512x1, .f32⟩
  | 17 => ⟨S4x512, .f32⟩
  | 18 => ⟨S_, .f32⟩
  | 19 => ⟨S4x512, .f32⟩
  | 20 => ⟨S4x512, .f32⟩
  | 21 => ⟨S_, .i32⟩
  | 22 => ⟨S_, .i32⟩
  | 23 => ⟨S_, .f32⟩
  | 24 => ⟨S4x512, .f32⟩
  | 25 => ⟨S4x512, .f32⟩
  | 26 => ⟨S_, .f32⟩
  | 27 => ⟨S4x512, .f32⟩
  | 28 => ⟨S4x512, .f32⟩
  | 29 => ⟨S4x512x1, .f32⟩
  | 30 => ⟨S4x512, .f32⟩
  | 31 => ⟨S_, .f32⟩
  | 32 => ⟨S4x512, .f32⟩
  | 33 => ⟨S4x512, .f32⟩
  | 34 => ⟨S_, .i32⟩
  | 35 => ⟨S_, .i32⟩
  | 36 => ⟨S_, .f32⟩
  | 37 => ⟨S4x512, .f32⟩
  | 38 => ⟨S4x512, .f32⟩
  | 39 => ⟨S_, .f32⟩
  | 40 => ⟨S4x512, .f32⟩
  | 41 => ⟨S4x512, .f32⟩
  | 42 => ⟨S4x512x1, .f32⟩
  | 43 => ⟨S1x1x49, .f32⟩
  | 44 => ⟨S4x512x49, .f32⟩
  | 45 => ⟨S4x512x49, .f32⟩
  | 46 => ⟨S4x512x49, .f32⟩
  | 47 => ⟨S_, .i32⟩
  | 48 => ⟨S_, .i32⟩
  | 49 => ⟨S_, .f32⟩
  | 50 => ⟨S4x512x49, .f32⟩
  | 51 => ⟨S4x512x49, .f32⟩
  | 52 => ⟨S_, .f32⟩
  | 53 => ⟨S4x512x49, .f32⟩
  | 54 => ⟨S4x512x49, .f32⟩
  | 55 => ⟨S4x512x49, .f32⟩
  | 56 => ⟨S4x512x49, .i32⟩
  | 57 => ⟨S4x512x1, .f32⟩
  | 58 => ⟨S1x1x49, .f32⟩
  | 59 => ⟨S4x512x49, .f32⟩
  | 60 => ⟨S4x512x49, .f32⟩
  | 61 => ⟨S4x512x49, .f32⟩
  | 62 => ⟨S_, .i32⟩
  | 63 => ⟨S_, .i32⟩
  | 64 => ⟨S_, .f32⟩
  | 65 => ⟨S4x512x49, .f32⟩
  | 66 => ⟨S4x512x49, .f32⟩
  | 67 => ⟨S_, .f32⟩
  | 68 => ⟨S4x512x49, .f32⟩
  | 69 => ⟨S4x512x49, .f32⟩
  | 70 => ⟨S4x512x49, .f32⟩
  | 71 => ⟨S4x512x49, .i32⟩
  | 72 => ⟨S_, .i32⟩
  | 73 => ⟨S4x512x49, .i32⟩
  | 74 => ⟨S4x512x49, .i32⟩
  | 75 => ⟨S4x512x49, .i32⟩
  | 76 => ⟨S4x1x25088, .i32⟩
  | 77 => ⟨S4x128x28365, .f32⟩
  | 78 => ⟨S4x128x25088, .i32⟩
  | 79 => ⟨S_, .i32⟩
  | 80 => ⟨S4x128x25088, .i32⟩
  | 81 => ⟨S4x128x25088, .i1⟩
  | 82 => ⟨S_, .i32⟩
  | 83 => ⟨S4x128x25088, .i32⟩
  | 84 => ⟨S4x128x25088, .i32⟩
  | 85 => ⟨S4x128x25088, .i32⟩
  | 86 => ⟨S4x128x25088x1, .i32⟩
  | 87 => ⟨S1, .i32⟩
  | 88 => ⟨S_, .i32⟩
  | 89 => ⟨S4x128x25088x1, .i32⟩
  | 90 => ⟨S4x128x25088x1, .i1⟩
  | 91 => ⟨S1x1x1x1, .i32⟩
  | 92 => ⟨S4x128x25088x1, .i32⟩
  | 93 => ⟨S4x128x25088x1, .i1⟩
  | 94 => ⟨S4x128x25088x1, .i1⟩
  | 95 => ⟨S_, .i1⟩
  | 96 => ⟨S4x128x25088, .i1⟩
  | 97 => ⟨S4x128x25088, .f32⟩
  | 98 => ⟨S_, .f32⟩
  | 99 => ⟨S4x128x25088, .f32⟩
  | 100 => ⟨S4x128x25088, .f32⟩
  | 101 => ⟨S4x128x512x49, .f32⟩
  | 102 => ⟨S5, .i32⟩
  | 103 => ⟨S_, .i32⟩
  | 104 => ⟨S5, .i32⟩
  | 105 => ⟨S5, .i32⟩
  | 106 => ⟨S5x5, .i32⟩
  | 107 => ⟨S5x5, .i32⟩
  | 108 => ⟨S25, .i32⟩
  | 109 => ⟨S25, .f32⟩
  | 110 => ⟨S25, .i32⟩
  | 111 => ⟨S25, .f32⟩
  | 112 => ⟨S4x512x1, .f32⟩
  | 113 => ⟨S4x512, .f32⟩
  | 114 => ⟨S_, .f32⟩
  | 115 => ⟨S4x512, .f32⟩
  | 116 => ⟨S4x512, .f32⟩
  | 117 => ⟨S_, .i32⟩
  | 118 => ⟨S_, .i32⟩
  | 119 => ⟨S_, .f32⟩
  | 120 => ⟨S4x512, .f32⟩
  | 121 => ⟨S4x512, .f32⟩
  | 122 => ⟨S_, .f32⟩
  | 123 => ⟨S4x512, .f32⟩
  | 124 => ⟨S4x512, .f32⟩
  | 125 => ⟨S4x512x1, .f32⟩
  | 126 => ⟨S4x512, .f32⟩
  | 127 => ⟨S_, .f32⟩
  | _ => ⟨S4x512x2, .f32⟩

abbrev hbmTy0_1 (i : Nat) : BufTy := match i % 128 with
  | 0 => ⟨S4x512, .f32⟩
  | 1 => ⟨S4x512, .f32⟩
  | 2 => ⟨S_, .i32⟩
  | 3 => ⟨S_, .i32⟩
  | 4 => ⟨S_, .f32⟩
  | 5 => ⟨S4x512, .f32⟩
  | 6 => ⟨S4x512, .f32⟩
  | 7 => ⟨S_, .f32⟩
  | 8 => ⟨S4x512, .f32⟩
  | 9 => ⟨S4x512, .f32⟩
  | 10 => ⟨S4x512x1, .f32⟩
  | 11 => ⟨S1x1x25, .f32⟩
  | 12 => ⟨S4x512x25, .f32⟩
  | 13 => ⟨S4x512x25, .f32⟩
  | 14 => ⟨S4x512x25, .f32⟩
  | 15 => ⟨S_, .i32⟩
  | 16 => ⟨S_, .i32⟩
  | 17 => ⟨S_, .f32⟩
  | 18 => ⟨S4x512x25, .f32⟩
  | 19 => ⟨S4x512x25, .f32⟩
  | 20 => ⟨S_, .f32⟩
  | 21 => ⟨S4x512x25, .f32⟩
  | 22 => ⟨S4x512x25, .f32⟩
  | 23 => ⟨S4x512x25, .f32⟩
  | 24 => ⟨S4x512x25, .i32⟩
  | 25 => ⟨S4x512x1, .f32⟩
  | 26 => ⟨S1x1x25, .f32⟩
  | 27 => ⟨S4x512x25, .f32⟩
  | 28 => ⟨S4x512x25, .f32⟩
  | 29 => ⟨S4x512x25, .f32⟩
  | 30 => ⟨S_, .i32⟩
  | 31 => ⟨S_, .i32⟩
  | 32 => ⟨S_, .f32⟩
  | 33 => ⟨S4x512x25, .f32⟩
  | 34 => ⟨S4x512x25, .f32⟩
  | 35 => ⟨S_, .f32⟩
  | 36 => ⟨S4x512x25, .f32⟩
  | 37 => ⟨S4x512x25, .f32⟩
  | 38 => ⟨S4x512x25, .f32⟩
  | 39 => ⟨S4x512x25, .i32⟩
  | 40 => ⟨S_, .i32⟩
  | 41 => ⟨S4x512x25, .i32⟩
  | 42 => ⟨S4x512x25, .i32⟩
  | 43 => ⟨S4x512x25, .i32⟩
  | 44 => ⟨S4x1x12800, .i32⟩
  | 45 => ⟨S4x128x7191, .f32⟩
  | 46 => ⟨S4x128x12800, .i32⟩
  | 47 => ⟨S_, .i32⟩
  | 48 => ⟨S4x128x12800, .i32⟩
  | 49 => ⟨S4x128x12800, .i1⟩
  | 50 => ⟨S_, .i32⟩
  | 51 => ⟨S4x128x12800, .i32⟩
  | 52 => ⟨S4x128x12800, .i32⟩
  | 53 => ⟨S4x128x12800, .i32⟩
  | 54 => ⟨S4x128x12800x1, .i32⟩
  | 55 => ⟨S1, .i32⟩
  | 56 => ⟨S_, .i32⟩
  | 57 => ⟨S4x128x12800x1, .i32⟩
  | 58 => ⟨S4x128x12800x1, .i1⟩
  | 59 => ⟨S1x1x1x1, .i32⟩
  | 60 => ⟨S4x128x12800x1, .i32⟩
  | 61 => ⟨S4x128x12800x1, .i1⟩
  | 62 => ⟨S4x128x12800x1, .i1⟩
  | 63 => ⟨S_, .i1⟩
  | 64 => ⟨S4x128x12800, .i1⟩
  | 65 => ⟨S4x128x12800, .f32⟩
  | 66 => ⟨S_, .f32⟩
  | 67 => ⟨S4x128x12800, .f32⟩
  | 68 => ⟨S4x128x12800, .f32⟩
  | 69 => ⟨S4x128x512x25, .f32⟩
  | 70 => ⟨S3, .i32⟩
  | 71 => ⟨S_, .i32⟩
  | 72 => ⟨S3, .i32⟩
  | 73 => ⟨S3, .i32⟩
  | 74 => ⟨S3x3, .i32⟩
  | 75 => ⟨S3x3, .i32⟩
  | 76 => ⟨S9, .i32⟩
  | 77 => ⟨S9, .f32⟩
  | 78 => ⟨S9, .i32⟩
  | 79 => ⟨S9, .f32⟩
  | 80 => ⟨S4x512x1, .f32⟩
  | 81 => ⟨S4x512, .f32⟩
  | 82 => ⟨S_, .f32⟩
  | 83 => ⟨S4x512, .f32⟩
  | 84 => ⟨S4x512, .f32⟩
  | 85 => ⟨S_, .i32⟩
  | 86 => ⟨S_, .i32⟩
  | 87 => ⟨S_, .f32⟩
  | 88 => ⟨S4x512, .f32⟩
  | 89 => ⟨S4x512, .f32⟩
  | 90 => ⟨S_, .f32⟩
  | 91 => ⟨S4x512, .f32⟩
  | 92 => ⟨S4x512, .f32⟩
  | 93 => ⟨S4x512x1, .f32⟩
  | 94 => ⟨S4x512, .f32⟩
  | 95 => ⟨S_, .f32⟩
  | 96 => ⟨S4x512, .f32⟩
  | 97 => ⟨S4x512, .f32⟩
  | 98 => ⟨S_, .i32⟩
  | 99 => ⟨S_, .i32⟩
  | 100 => ⟨S_, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S4x512x1, .f32⟩
  | 107 => ⟨S1x1x9, .f32⟩
  | 108 => ⟨S4x512x9, .f32⟩
  | 109 => ⟨S4x512x9, .f32⟩
  | 110 => ⟨S4x512x9, .f32⟩
  | 111 => ⟨S_, .i32⟩
  | 112 => ⟨S_, .i32⟩
  | 113 => ⟨S_, .f32⟩
  | 114 => ⟨S4x512x9, .f32⟩
  | 115 => ⟨S4x512x9, .f32⟩
  | 116 => ⟨S_, .f32⟩
  | 117 => ⟨S4x512x9, .f32⟩
  | 118 => ⟨S4x512x9, .f32⟩
  | 119 => ⟨S4x512x9, .f32⟩
  | 120 => ⟨S4x512x9, .i32⟩
  | 121 => ⟨S4x512x1, .f32⟩
  | 122 => ⟨S1x1x9, .f32⟩
  | 123 => ⟨S4x512x9, .f32⟩
  | 124 => ⟨S4x512x9, .f32⟩
  | 125 => ⟨S4x512x9, .f32⟩
  | 126 => ⟨S_, .i32⟩
  | 127 => ⟨S_, .i32⟩
  | _ => ⟨S4x512x2, .f32⟩

abbrev hbmTy0_2 (i : Nat) : BufTy := match i % 128 with
  | 0 => ⟨S_, .f32⟩
  | 1 => ⟨S4x512x9, .f32⟩
  | 2 => ⟨S4x512x9, .f32⟩
  | 3 => ⟨S_, .f32⟩
  | 4 => ⟨S4x512x9, .f32⟩
  | 5 => ⟨S4x512x9, .f32⟩
  | 6 => ⟨S4x512x9, .f32⟩
  | 7 => ⟨S4x512x9, .i32⟩
  | 8 => ⟨S_, .i32⟩
  | 9 => ⟨S4x512x9, .i32⟩
  | 10 => ⟨S4x512x9, .i32⟩
  | 11 => ⟨S4x512x9, .i32⟩
  | 12 => ⟨S4x1x4608, .i32⟩
  | 13 => ⟨S4x128x1848, .f32⟩
  | 14 => ⟨S4x128x4608, .i32⟩
  | 15 => ⟨S_, .i32⟩
  | 16 => ⟨S4x128x4608, .i32⟩
  | 17 => ⟨S4x128x4608, .i1⟩
  | 18 => ⟨S_, .i32⟩
  | 19 => ⟨S4x128x4608, .i32⟩
  | 20 => ⟨S4x128x4608, .i32⟩
  | 21 => ⟨S4x128x4608, .i32⟩
  | 22 => ⟨S4x128x4608x1, .i32⟩
  | 23 => ⟨S1, .i32⟩
  | 24 => ⟨S_, .i32⟩
  | 25 => ⟨S4x128x4608x1, .i32⟩
  | 26 => ⟨S4x128x4608x1, .i1⟩
  | 27 => ⟨S1x1x1x1, .i32⟩
  | 28 => ⟨S4x128x4608x1, .i32⟩
  | 29 => ⟨S4x128x4608x1, .i1⟩
  | 30 => ⟨S4x128x4608x1, .i1⟩
  | 31 => ⟨S_, .i1⟩
  | 32 => ⟨S4x128x4608, .i1⟩
  | 33 => ⟨S4x128x4608, .f32⟩
  | 34 => ⟨S_, .f32⟩
  | 35 => ⟨S4x128x4608, .f32⟩
  | 36 => ⟨S4x128x4608, .f32⟩
  | 37 => ⟨S4x128x512x9, .f32⟩
  | 38 => ⟨S4x128x512x83, .f32⟩
  | 39 => ⟨S4x512x128x83, .f32⟩
  | 40 => ⟨S262144x83, .f32⟩
  | 41 => ⟨S83x256, .f32⟩
  | 42 => ⟨S262144x256, .f32⟩
  | 43 => ⟨S1x256, .f32⟩
  | 44 => ⟨S262144x256, .f32⟩
  | 45 => ⟨S262144x256, .f32⟩
  | 46 => ⟨S4x128x512x256, .f32⟩
  | _ => ⟨S4x512x2, .f32⟩

abbrev hbmTy (i : Nat) : BufTy := match i / 128 with
  | 0 => hbmTy0_0 i
  | 1 => hbmTy0_1 i
  | 2 => hbmTy0_2 i
  | _ => ⟨S4x512x2, .f32⟩

abbrev bufTy : (tb : Table) → Fin (tcTables nBuf tb) → BufTy
  | .hbm, ⟨i, _⟩ => hbmTy i
  | _, _ => ⟨S4x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_9 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_cst : Ref sig .tc := ⟨.hbm, 98, rfl⟩
abbrev main_call4_v14 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_10 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_v55 : Ref sig .tc := ⟨.hbm, 116, rfl⟩
abbrev main_c_12 : Ref sig .tc := ⟨.hbm, 117, rfl⟩
abbrev main_c_13 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_14 : Ref sig .tc := ⟨.hbm, 127, rfl⟩
abbrev main_v59 : Ref sig .tc := ⟨.hbm, 128, rfl⟩
abbrev main_v60 : Ref sig .tc := ⟨.hbm, 129, rfl⟩
abbrev main_c_15 : Ref sig .tc := ⟨.hbm, 130, rfl⟩
abbrev main_c_16 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_17 : Ref sig .tc := ⟨.hbm, 143, rfl⟩
abbrev main_c_18 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_c_19 : Ref sig .tc := ⟨.hbm, 158, rfl⟩
abbrev main_c_20 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_c_21 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_call9_c : Ref sig .tc := ⟨.hbm, 175, rfl⟩
abbrev main_call9_v0 : Ref sig .tc := ⟨.hbm, 176, rfl⟩
abbrev main_call9_v1 : Ref sig .tc := ⟨.hbm, 177, rfl⟩
abbrev main_call9_c_0 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_c_1 : Ref sig .tc := ⟨.hbm, 183, rfl⟩
abbrev main_call9_c_2 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_v9 : Ref sig .tc := ⟨.hbm, 188, rfl⟩
abbrev main_call9_v10 : Ref sig .tc := ⟨.hbm, 189, rfl⟩
abbrev main_call9_v11 : Ref sig .tc := ⟨.hbm, 190, rfl⟩
abbrev main_call9_c_3 : Ref sig .tc := ⟨.hbm, 191, rfl⟩
abbrev main_call9_v12 : Ref sig .tc := ⟨.hbm, 192, rfl⟩
abbrev main_call9_v13 : Ref sig .tc := ⟨.hbm, 193, rfl⟩
abbrev main_call9_cst : Ref sig .tc := ⟨.hbm, 194, rfl⟩
abbrev main_call9_v14 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_c_22 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_cst_23 : Ref sig .tc := ⟨.hbm, 210, rfl⟩
abbrev main_v97 : Ref sig .tc := ⟨.hbm, 211, rfl⟩
abbrev main_v98 : Ref sig .tc := ⟨.hbm, 212, rfl⟩
abbrev main_c_24 : Ref sig .tc := ⟨.hbm, 213, rfl⟩
abbrev main_c_25 : Ref sig .tc := ⟨.hbm, 214, rfl⟩
abbrev main_call10_v0 : Ref sig .tc := ⟨.hbm, 215, rfl⟩
abbrev main_call10_v1 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_cst_26 : Ref sig .tc := ⟨.hbm, 223, rfl⟩
abbrev main_v102 : Ref sig .tc := ⟨.hbm, 224, rfl⟩
abbrev main_v103 : Ref sig .tc := ⟨.hbm, 225, rfl⟩
abbrev main_c_27 : Ref sig .tc := ⟨.hbm, 226, rfl⟩
abbrev main_c_28 : Ref sig .tc := ⟨.hbm, 227, rfl⟩
abbrev main_call11_v0 : Ref sig .tc := ⟨.hbm, 228, rfl⟩
abbrev main_call11_v1 : Ref sig .tc := ⟨.hbm, 229, rfl⟩
abbrev main_call11_v2 : Ref sig .tc := ⟨.hbm, 230, rfl⟩
abbrev main_call11_v3 : Ref sig .tc := ⟨.hbm, 231, rfl⟩
abbrev main_call11_v4 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_c_29 : Ref sig .tc := ⟨.hbm, 239, rfl⟩
abbrev main_c_30 : Ref sig .tc := ⟨.hbm, 240, rfl⟩
abbrev main_call12_v0 : Ref sig .tc := ⟨.hbm, 241, rfl⟩
abbrev main_call12_v1 : Ref sig .tc := ⟨.hbm, 242, rfl⟩
abbrev main_call12_v2 : Ref sig .tc := ⟨.hbm, 243, rfl⟩
abbrev main_call12_v3 : Ref sig .tc := ⟨.hbm, 244, rfl⟩
abbrev main_call12_v4 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_c_31 : Ref sig .tc := ⟨.hbm, 254, rfl⟩
abbrev main_c_32 : Ref sig .tc := ⟨.hbm, 255, rfl⟩
abbrev main_call13_v0 : Ref sig .tc := ⟨.hbm, 256, rfl⟩
abbrev main_call13_v1 : Ref sig .tc := ⟨.hbm, 257, rfl⟩
abbrev main_call13_v2 : Ref sig .tc := ⟨.hbm, 258, rfl⟩
abbrev main_call13_v3 : Ref sig .tc := ⟨.hbm, 259, rfl⟩
abbrev main_call13_v4 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_c_33 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_v124 : Ref sig .tc := ⟨.hbm, 268, rfl⟩
abbrev main_v125 : Ref sig .tc := ⟨.hbm, 269, rfl⟩
abbrev main_v126 : Ref sig .tc := ⟨.hbm, 270, rfl⟩
abbrev main_call14_c : Ref sig .tc := ⟨.hbm, 271, rfl⟩
abbrev main_call14_v0 : Ref sig .tc := ⟨.hbm, 272, rfl⟩
abbrev main_call14_v1 : Ref sig .tc := ⟨.hbm, 273, rfl⟩
abbrev main_call14_c_0 : Ref sig .tc := ⟨.hbm, 274, rfl⟩
abbrev main_call14_v2 : Ref sig .tc := ⟨.hbm, 275, rfl⟩
abbrev main_call14_v3 : Ref sig .tc := ⟨.hbm, 276, rfl⟩
abbrev main_call14_v4 : Ref sig .tc := ⟨.hbm, 277, rfl⟩
abbrev main_call14_v5 : Ref sig .tc := ⟨.hbm, 278, rfl⟩
abbrev main_call14_c_1 : Ref sig .tc := ⟨.hbm, 279, rfl⟩
abbrev main_call14_c_2 : Ref sig .tc := ⟨.hbm, 280, rfl⟩
abbrev main_call14_v6 : Ref sig .tc := ⟨.hbm, 281, rfl⟩
abbrev main_call14_v7 : Ref sig .tc := ⟨.hbm, 282, rfl⟩
abbrev main_call14_v8 : Ref sig .tc := ⟨.hbm, 283, rfl⟩
abbrev main_call14_v9 : Ref sig .tc := ⟨.hbm, 284, rfl⟩
abbrev main_call14_v10 : Ref sig .tc := ⟨.hbm, 285, rfl⟩
abbrev main_call14_v11 : Ref sig .tc := ⟨.hbm, 286, rfl⟩
abbrev main_call14_c_3 : Ref sig .tc := ⟨.hbm, 287, rfl⟩
abbrev main_call14_v12 : Ref sig .tc := ⟨.hbm, 288, rfl⟩
abbrev main_call14_v13 : Ref sig .tc := ⟨.hbm, 289, rfl⟩
abbrev main_call14_cst : Ref sig .tc := ⟨.hbm, 290, rfl⟩
abbrev main_call14_v14 : Ref sig .tc := ⟨.hbm, 291, rfl⟩
abbrev main_v127 : Ref sig .tc := ⟨.hbm, 292, rfl⟩
abbrev main_v128 : Ref sig .tc := ⟨.hbm, 293, rfl⟩
abbrev main_v129 : Ref sig .tc := ⟨.hbm, 294, rfl⟩
abbrev main_v130 : Ref sig .tc := ⟨.hbm, 295, rfl⟩
abbrev main_v131 : Ref sig .tc := ⟨.hbm, 296, rfl⟩
abbrev main_v132 : Ref sig .tc := ⟨.hbm, 297, rfl⟩
abbrev main_v133 : Ref sig .tc := ⟨.hbm, 298, rfl⟩
abbrev main_v134 : Ref sig .tc := ⟨.hbm, 299, rfl⟩
abbrev main_v135 : Ref sig .tc := ⟨.hbm, 300, rfl⟩
abbrev main_v136 : Ref sig .tc := ⟨.hbm, 301, rfl⟩
abbrev main_v137 : Ref sig .tc := ⟨.hbm, 302, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S7_S7x7_0 : S7.BroadcastsInDim S7x7 (![0] : Fin 1 → Fin S7x7.rank)
  bcast_S7_S7x7_1 : S7.BroadcastsInDim S7x7 (![1] : Fin 1 → Fin S7x7.rank)
  shapeCasts_S7x7_S49 : S7x7.ShapeCasts S49
  slices_S4x512x2_S4x512x1_0_0_0 : S4x512x2.Slices ![0, 0, 0] S4x512x1
  shapeCasts_S4x512x1_S4x512 : S4x512x1.ShapeCasts S4x512
  bcast_S_S4x512 : S_.BroadcastsInDim S4x512 (![] : Fin 0 → Fin S4x512.rank)
  slices_S4x512x2_S4x512x1_0_0_1 : S4x512x2.Slices ![0, 0, 1] S4x512x1
  bcast_S4x512_S4x512x1_0_1 : S4x512.BroadcastsInDim S4x512x1 (![0, 1] : Fin 2 → Fin S4x512x1.rank)
  bcast_S49_S1x1x49_2 : S49.BroadcastsInDim S1x1x49 (![2] : Fin 1 → Fin S1x1x49.rank)
  bcast_S4x512x1_S4x512x49_0_1_2 : S4x512x1.BroadcastsInDim S4x512x49 (![0, 1, 2] : Fin 3 → Fin S4x512x49.rank)
  bcast_S1x1x49_S4x512x49_0_1_2 : S1x1x49.BroadcastsInDim S4x512x49 (![0, 1, 2] : Fin 3 → Fin S4x512x49.rank)
  bcast_S_S4x512x49 : S_.BroadcastsInDim S4x512x49 (![] : Fin 0 → Fin S4x512x49.rank)
  shapeCasts_S4x512x49_S4x1x25088 : S4x512x49.ShapeCasts S4x1x25088
  shapeCasts_S4x128x93x305_S4x128x28365 : S4x128x93x305.ShapeCasts S4x128x28365
  bcast_S4x1x25088_S4x128x25088_0_1_2 : S4x1x25088.BroadcastsInDim S4x128x25088 (![0, 1, 2] : Fin 3 → Fin S4x128x25088.rank)
  bcast_S_S4x128x25088 : S_.BroadcastsInDim S4x128x25088 (![] : Fin 0 → Fin S4x128x25088.rank)
  shapeCasts_S4x128x25088_S4x128x25088x1 : S4x128x25088.ShapeCasts S4x128x25088x1
  bcast_S_S4x128x25088x1 : S_.BroadcastsInDim S4x128x25088x1 (![] : Fin 0 → Fin S4x128x25088x1.rank)
  bcast_S1_S1x1x1x1_3 : S1.BroadcastsInDim S1x1x1x1 (![3] : Fin 1 → Fin S1x1x1x1.rank)
  bcast_S1x1x1x1_S4x128x25088x1_0_1_2_3 : S1x1x1x1.BroadcastsInDim S4x128x25088x1 (![0, 1, 2, 3] : Fin 4 → Fin S4x128x25088x1.rank)
  reducesTo_S4x128x25088x1_S4x128x25088_d3 : S4x128x25088x1.ReducesTo [3] S4x128x25088
  h_S_ : 0 < S_.numel
  shapeCasts_S4x128x25088_S4x128x512x49 : S4x128x25088.ShapeCasts S4x128x512x49
  bcast_S_S5 : S_.BroadcastsInDim S5 (![] : Fin 0 → Fin S5.rank)
  bcast_S5_S5x5_0 : S5.BroadcastsInDim S5x5 (![0] : Fin 1 → Fin S5x5.rank)
  bcast_S5_S5x5_1 : S5.BroadcastsInDim S5x5 (![1] : Fin 1 → Fin S5x5.rank)
  shapeCasts_S5x5_S25 : S5x5.ShapeCasts S25
  bcast_S25_S1x1x25_2 : S25.BroadcastsInDim S1x1x25 (![2] : Fin 1 → Fin S1x1x25.rank)
  bcast_S4x512x1_S4x512x25_0_1_2 : S4x512x1.BroadcastsInDim S4x512x25 (![0, 1, 2] : Fin 3 → Fin S4x512x25.rank)
  bcast_S1x1x25_S4x512x25_0_1_2 : S1x1x25.BroadcastsInDim S4x512x25 (![0, 1, 2] : Fin 3 → Fin S4x512x25.rank)
  bcast_S_S4x512x25 : S_.BroadcastsInDim S4x512x25 (![] : Fin 0 → Fin S4x512x25.rank)
  shapeCasts_S4x512x25_S4x1x12800 : S4x512x25.ShapeCasts S4x1x12800
  shapeCasts_S4x128x47x153_S4x128x7191 : S4x128x47x153.ShapeCasts S4x128x7191
  bcast_S4x1x12800_S4x128x12800_0_1_2 : S4x1x12800.BroadcastsInDim S4x128x12800 (![0, 1, 2] : Fin 3 → Fin S4x128x12800.rank)
  bcast_S_S4x128x12800 : S_.BroadcastsInDim S4x128x12800 (![] : Fin 0 → Fin S4x128x12800.rank)
  shapeCasts_S4x128x12800_S4x128x12800x1 : S4x128x12800.ShapeCasts S4x128x12800x1
  bcast_S_S4x128x12800x1 : S_.BroadcastsInDim S4x128x12800x1 (![] : Fin 0 → Fin S4x128x12800x1.rank)
  bcast_S1x1x1x1_S4x128x12800x1_0_1_2_3 : S1x1x1x1.BroadcastsInDim S4x128x12800x1 (![0, 1, 2, 3] : Fin 4 → Fin S4x128x12800x1.rank)
  reducesTo_S4x128x12800x1_S4x128x12800_d3 : S4x128x12800x1.ReducesTo [3] S4x128x12800
  shapeCasts_S4x128x12800_S4x128x512x25 : S4x128x12800.ShapeCasts S4x128x512x25
  bcast_S_S3 : S_.BroadcastsInDim S3 (![] : Fin 0 → Fin S3.rank)
  bcast_S3_S3x3_0 : S3.BroadcastsInDim S3x3 (![0] : Fin 1 → Fin S3x3.rank)
  bcast_S3_S3x3_1 : S3.BroadcastsInDim S3x3 (![1] : Fin 1 → Fin S3x3.rank)
  shapeCasts_S3x3_S9 : S3x3.ShapeCasts S9
  bcast_S9_S1x1x9_2 : S9.BroadcastsInDim S1x1x9 (![2] : Fin 1 → Fin S1x1x9.rank)
  bcast_S4x512x1_S4x512x9_0_1_2 : S4x512x1.BroadcastsInDim S4x512x9 (![0, 1, 2] : Fin 3 → Fin S4x512x9.rank)
  bcast_S1x1x9_S4x512x9_0_1_2 : S1x1x9.BroadcastsInDim S4x512x9 (![0, 1, 2] : Fin 3 → Fin S4x512x9.rank)
  bcast_S_S4x512x9 : S_.BroadcastsInDim S4x512x9 (![] : Fin 0 → Fin S4x512x9.rank)
  shapeCasts_S4x512x9_S4x1x4608 : S4x512x9.ShapeCasts S4x1x4608
  shapeCasts_S4x128x24x77_S4x128x1848 : S4x128x24x77.ShapeCasts S4x128x1848
  bcast_S4x1x4608_S4x128x4608_0_1_2 : S4x1x4608.BroadcastsInDim S4x128x4608 (![0, 1, 2] : Fin 3 → Fin S4x128x4608.rank)
  bcast_S_S4x128x4608 : S_.BroadcastsInDim S4x128x4608 (![] : Fin 0 → Fin S4x128x4608.rank)
  shapeCasts_S4x128x4608_S4x128x4608x1 : S4x128x4608.ShapeCasts S4x128x4608x1
  bcast_S_S4x128x4608x1 : S_.BroadcastsInDim S4x128x4608x1 (![] : Fin 0 → Fin S4x128x4608x1.rank)
  bcast_S1x1x1x1_S4x128x4608x1_0_1_2_3 : S1x1x1x1.BroadcastsInDim S4x128x4608x1 (![0, 1, 2, 3] : Fin 4 → Fin S4x128x4608x1.rank)
  reducesTo_S4x128x4608x1_S4x128x4608_d3 : S4x128x4608x1.ReducesTo [3] S4x128x4608
  shapeCasts_S4x128x4608_S4x128x512x9 : S4x128x4608.ShapeCasts S4x128x512x9
  concatenates_S4x128x512x49_S4x128x512x25_S4x128x512x9_S4x128x512x83_d3 : Shape.Concatenates [S4x128x512x49, S4x128x512x25, S4x128x512x9] S4x128x512x83 3
  transposes_S4x128x512x83_S4x512x128x83_0_2_1_3 : S4x128x512x83.Transposes [0, 2, 1, 3] S4x512x128x83
  shapeCasts_S4x512x128x83_S262144x83 : S4x512x128x83.ShapeCasts S262144x83
  transposes_S256x83_S83x256_1_0 : S256x83.Transposes [1, 0] S83x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  shapeCasts_S262144x256_S4x128x512x256 : S262144x256.ShapeCasts S4x128x512x256
  gather_S4x128x28365_S4x128x25088x1_S4x128x25088_n_2_01_01_2_3_111_wf : GatherDims.WF S4x128x28365 S4x128x25088x1 S4x128x25088 [] [2] [0, 1] [2] [0, 1] 3 ![1, 1, 1]
  gather_S4x128x7191_S4x128x12800x1_S4x128x12800_n_2_01_01_2_3_111_wf : GatherDims.WF S4x128x7191 S4x128x12800x1 S4x128x12800 [] [2] [0, 1] [2] [0, 1] 3 ![1, 1, 1]
  gather_S4x128x1848_S4x128x4608x1_S4x128x4608_n_2_01_01_2_3_111_wf : GatherDims.WF S4x128x1848 S4x128x4608x1 S4x128x4608 [] [2] [0, 1] [2] [0, 1] 3 ![1, 1, 1]
  dot_S262144x83_S83x256_S262144x256_1_0_0_1_n_n_wf : DotDims.WF S262144x83 S83x256 S262144x256 [1] [0] [0] [1] [] []

variable [Facts₀]

def gather_S4x128x28365_S4x128x25088x1_S4x128x25088_n_2_01_01_2_3_111 : GatherDims S4x128x28365 S4x128x25088x1 S4x128x25088 where
  offsetDims := []
  collapsedSliceDims := [2]
  operandBatchingDims := [0, 1]
  startIndicesBatchingDims := [0, 1]
  startIndexMap := [2]
  indexVectorDim := 3
  sliceSizes := ![1, 1, 1]
  wf := gather_S4x128x28365_S4x128x25088x1_S4x128x25088_n_2_01_01_2_3_111_wf
def gather_S4x128x7191_S4x128x12800x1_S4x128x12800_n_2_01_01_2_3_111 : GatherDims S4x128x7191 S4x128x12800x1 S4x128x12800 where
  offsetDims := []
  collapsedSliceDims := [2]
  operandBatchingDims := [0, 1]
  startIndicesBatchingDims := [0, 1]
  startIndexMap := [2]
  indexVectorDim := 3
  sliceSizes := ![1, 1, 1]
  wf := gather_S4x128x7191_S4x128x12800x1_S4x128x12800_n_2_01_01_2_3_111_wf
def gather_S4x128x1848_S4x128x4608x1_S4x128x4608_n_2_01_01_2_3_111 : GatherDims S4x128x1848 S4x128x4608x1 S4x128x4608 where
  offsetDims := []
  collapsedSliceDims := [2]
  operandBatchingDims := [0, 1]
  startIndicesBatchingDims := [0, 1]
  startIndexMap := [2]
  indexVectorDim := 3
  sliceSizes := ![1, 1, 1]
  wf := gather_S4x128x1848_S4x128x4608x1_S4x128x4608_n_2_01_01_2_3_111_wf
def dot_S262144x83_S83x256_S262144x256_1_0_0_1_n_n : DotDims S262144x83 S83x256 S262144x256 where
  lhsContracting := [1]
  rhsContracting := [0]
  lhsNonContracting := [0]
  rhsNonContracting := [1]
  lhsBatch := []
  rhsBatch := []
  wf := dot_S262144x83_S83x256_S262144x256_1_0_0_1_n_n_wf

class Facts : Prop extends Facts₀ where

variable [Facts]
-- ==== Proof.HostBits.lean ====
/-
  The host side of the program around its one kernel launch. Before the launch the host computes, from the
  argument arrays, the gathered patches of the three feature maps joined along the tap axis, the transposed
  weights and the bias as a row; after it, it only re-reads the kernel's result under another shape. Stated
  here: the program is those lines, the launch, that line; no line before or after the launch writes an
  argument array, so each is found by the launch, and left at the end, as it was at the start; and the line after
  the launch touches nothing the launch's windows do not own or bypass.
-/
import proofs.«121196_j52106543235142_2_alg».proof.Proof.Gen.Kernel.Launch
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ) (ρ : Dev nD → PrngReg)

/-- The lines of host operations before the launch, in program order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- Core `c`'s buffer contents when the launch is reached: the launch memory after the lines before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- No line allocates a buffer. -/
theorem prefix_fresh : (prefixOps (F := F)).Forall fun ops => ops.Forall fun op => op.fresh = ∅ := by
  simp only [List.Forall]; repeat' constructor
theorem suffix_fresh : (hostOps1 : List (HloOp τ sig (Elt F))).Forall fun op => op.fresh = ∅ := by
  simp only [List.Forall]; repeat' constructor

/-- Every line touches TensorCore references only. -/
theorem prefix_sub : (prefixOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩

/-- The program is the lines before the launch, the launch, and the one line after it: it reduces to the launch
    continued by that line, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The line after the launch touches only unscoped TensorCore buffers: the windows' arrays and what bypasses the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes none of the windows' arrays: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the line after it: argument 1 ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2 ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3 ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4 ends as it was at the start. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5 ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

end Cert.Kernel.Hand

end
-- ==== Proof.BodyBits.lean ====
/-
  The projection kernel's body on its four staging buffers. It reads the block of gathered patches
  (1 × 128 channels × 32 points × 83 taps), the transposed weights (83 × 256) and the bias row (1 × 256) whole,
  and overwrites the output buffer (4096 × 256) whole with one value computed from the three. Stated here: the
  body runs without a fault, leaves the three inputs as it found them, and leaves in the output buffer that one
  value, whatever the buffer held before.
-/
import proofs.«121196_j52106543235142_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four whole-buffer rectangles the body reads and writes through -/

abbrev rPatches : Rect S1x128x32x83 := Rect.unit (s := S1x128x32x83) ![0, 0, 0, 0] S1x128x32x83.size inb_S1x128x32x83_S1x128x32x83_0_0_0_0
abbrev rWeights : Rect S83x256 := Rect.unit (s := S83x256) ![0, 0] S83x256.size inb_S83x256_S83x256_0_0
abbrev rBias : Rect S1x256 := Rect.unit (s := S1x256) ![0, 0] S1x256.size inb_S1x256_S1x256_0_0
abbrev rOut : Rect S4096x256 := Rect.unit (s := S4096x256) ![0, 0] S4096x256.size inb_S4096x256_S4096x256_0_0

/-- What the output buffer holds after the body, from the three inputs' contents: the one store of the
    body, of its one computed value, through the whole-buffer rectangle. -/
def outBlock (x0 : Vec F S1x128x32x83 .f32) (x1 : Vec F S83x256 .f32) (x2 : Vec F S1x256 .f32) : Vec F S4096x256 .f32 :=
  View.canon [⟨rOut, k0_pay1 (View.ld x0 rPatches) (View.ld x1 rWeights) (View.ld x2 rBias)⟩]

/-- The one store covers the output buffer. -/
theorem outCover (p0 : Vec F S4096x256 .f32) (y : S4096x256.Idx) :
    ∃ pc ∈ ([⟨rOut, p0⟩] : List (View.Piece (Elt F) S4096x256 .f32)), y ∈ pc.1.set :=
  View.cover_of_tiled [⟨rOut, p0⟩] S4096x256.size (by rfl) y

set_option maxHeartbeats 1000000 in
/-- The body's triple: from the three inputs at contents `x0 x1 x2` and the output at anything, it runs to its
    return with the inputs unchanged and the output at `outBlock x0 x1 x2`. -/
theorem sound_kernel (c : Dev nD) (E : Set ℕ) (i : grid0.Coords)
    (arg2 : Memref sig .tc .vmem S1x128x32x83 .f32) (harg2 : arg2.IsWhole) (arg3 : Memref sig .tc .vmem S83x256 .f32) (harg3 : arg3.IsWhole)
    (arg4 : Memref sig .tc .vmem S1x256 .f32) (harg4 : arg4.IsWhole) (arg5 : Memref sig .tc .vmem S4096x256 .f32) (harg5 : arg5.IsWhole)
    (x0 : Vec F S1x128x32x83 .f32) (x1 : Vec F S83x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (outCover _)

end Cert.Kernel.Hand

end
-- ==== Proof.FrameBits.lean ====
/-
  The program's run around its one kernel launch. The launch walks a 4 × 16 grid; at each point the pipeline
  hands the body one block of the gathered patches, the whole transposed weights and the whole bias row, and
  writes back the 4096 × 256 block the body leaves. With the body's triple and the host lines' facts this gives:
  every weakly fair execution of the program terminates without a fault; at the end each window's array holds
  what the pipeline's proof data say (the output array: the blocks the body left, written back), every other
  buffer what the host lines leave there; in particular the six argument arrays end as they started.
-/
import proofs.«121196_j52106543235142_2_alg».proof.Proof.HostBits
import proofs.«121196_j52106543235142_2_alg».proof.Proof.BodyBits
import proofs.«121196_j52106543235142_2_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch's and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the launch's and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the launch's and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the launch's, a run to the library's frame post gives the frame claim's:
    no window stages an argument array, so each is read back as the host lines leave it, which is as it started. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The pipeline's proof data -/

/-- The proof data of the one pipeline on core `c`: the arrays as the launch finds them; after the body at point `t` each
    input's buffer at its block and the output's at the body's value of the three input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Hand

end
-- ==== Proof.HostIdeal.lean ====
/-
  The host side of the program around its one kernel launch. Before the launch the host computes, from the
  argument arrays, the gathered patches of the three feature maps joined along the tap axis, the transposed
  weights and the bias as a row; after it, it only re-reads the kernel's result under another shape. Stated
  here: the program is those lines, the launch, that line; no line before or after the launch writes an
  argument array, so each is found by the launch, and left at the end, as it was at the start; and the line after
  the launch touches nothing the launch's windows do not own or bypass.
-/
import proofs.«121196_j52106543235142_2_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ) (ρ : Dev nD → PrngReg)

/-- The lines of host operations before the launch, in program order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- Core `c`'s buffer contents when the launch is reached: the launch memory after the lines before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- No line allocates a buffer. -/
theorem prefix_fresh : (prefixOps (F := F)).Forall fun ops => ops.Forall fun op => op.fresh = ∅ := by
  simp only [List.Forall]; repeat' constructor
theorem suffix_fresh : (hostOps1 : List (HloOp τ sig (Elt F))).Forall fun op => op.fresh = ∅ := by
  simp only [List.Forall]; repeat' constructor

/-- Every line touches TensorCore references only. -/
theorem prefix_sub : (prefixOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩

/-- The program is the lines before the launch, the launch, and the one line after it: it reduces to the launch
    continued by that line, at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The line after the launch touches only unscoped TensorCore buffers: the windows' arrays and what bypasses the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp suffix_fresh) op hop
/-- And it writes none of the windows' arrays: only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No line before the launch writes argument 0: the launch finds it as it was at the start. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 1: the launch finds it as it was at the start. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 2: the launch finds it as it was at the start. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 3: the launch finds it as it was at the start. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 4: the launch finds it as it was at the start. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line before the launch writes argument 5: the launch finds it as it was at the start. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as it was at the start. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor does the line after it: argument 1 ends as it was at the start. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2 ends as it was at the start. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3 ends as it was at the start. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4 ends as it was at the start. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5 ends as it was at the start. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

end Cert.KernelIdeal.Hand

end
-- ==== Proof.BodyIdeal.lean ====
/-
  The projection kernel's body on its four staging buffers. It reads the block of gathered patches
  (1 × 128 channels × 32 points × 83 taps), the transposed weights (83 × 256) and the bias row (1 × 256) whole,
  and overwrites the output buffer (4096 × 256) whole with one value computed from the three. Stated here: the
  body runs without a fault, leaves the three inputs as it found them, and leaves in the output buffer that one
  value, whatever the buffer held before.
-/
import proofs.«121196_j52106543235142_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four whole-buffer rectangles the body reads and writes through -/

abbrev rPatches : Rect S1x128x32x83 := Rect.unit (s := S1x128x32x83) ![0, 0, 0, 0] S1x128x32x83.size inb_S1x128x32x83_S1x128x32x83_0_0_0_0
abbrev rWeights : Rect S83x256 := Rect.unit (s := S83x256) ![0, 0] S83x256.size inb_S83x256_S83x256_0_0
abbrev rBias : Rect S1x256 := Rect.unit (s := S1x256) ![0, 0] S1x256.size inb_S1x256_S1x256_0_0
abbrev rOut : Rect S4096x256 := Rect.unit (s := S4096x256) ![0, 0] S4096x256.size inb_S4096x256_S4096x256_0_0

/-- What the output buffer holds after the body, from the three inputs' contents: the one store of the
    body, of its one computed value, through the whole-buffer rectangle. -/
def outBlock (x0 : Vec F S1x128x32x83 .f32) (x1 : Vec F S83x256 .f32) (x2 : Vec F S1x256 .f32) : Vec F S4096x256 .f32 :=
  View.canon [⟨rOut, k0_pay1 (View.ld x0 rPatches) (View.ld x1 rWeights) (View.ld x2 rBias)⟩]

/-- The one store covers the output buffer. -/
theorem outCover (p0 : Vec F S4096x256 .f32) (y : S4096x256.Idx) :
    ∃ pc ∈ ([⟨rOut, p0⟩] : List (View.Piece (Elt F) S4096x256 .f32)), y ∈ pc.1.set :=
  View.cover_of_tiled [⟨rOut, p0⟩] S4096x256.size (by rfl) y

set_option maxHeartbeats 1000000 in
/-- The body's triple: from the three inputs at contents `x0 x1 x2` and the output at anything, it runs to its
    return with the inputs unchanged and the output at `outBlock x0 x1 x2`. -/
theorem sound_kernel (c : Dev nD) (E : Set ℕ) (i : grid0.Coords)
    (arg2 : Memref sig .tc .vmem S1x128x32x83 .f32) (harg2 : arg2.IsWhole) (arg3 : Memref sig .tc .vmem S83x256 .f32) (harg3 : arg3.IsWhole)
    (arg4 : Memref sig .tc .vmem S1x256 .f32) (harg4 : arg4.IsWhole) (arg5 : Memref sig .tc .vmem S4096x256 .f32) (harg5 : arg5.IsWhole)
    (x0 : Vec F S1x128x32x83 .f32) (x1 : Vec F S83x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (outCover _)

end Cert.KernelIdeal.Hand

end
-- ==== Proof.FrameIdeal.lean ====
/-
  The program's run around its one kernel launch. The launch walks a 4 × 16 grid; at each point the pipeline
  hands the body one block of the gathered patches, the whole transposed weights and the whole bias row, and
  writes back the 4096 × 256 block the body leaves. With the body's triple and the host lines' facts this gives:
  every weakly fair execution of the program terminates without a fault; at the end each window's array holds
  what the pipeline's proof data say (the output array: the blocks the body left, written back), every other
  buffer what the host lines leave there; in particular the six argument arrays end as they started.
-/
import proofs.«121196_j52106543235142_2_alg».proof.Proof.HostIdeal
import proofs.«121196_j52106543235142_2_alg».proof.Proof.BodyIdeal
import proofs.«121196_j52106543235142_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch's and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the launch's and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the launch's and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the launch's, a run to the library's frame post gives the frame claim's:
    no window stages an argument array, so each is read back as the host lines leave it, which is as it started. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The pipeline's proof data -/

/-- The proof data of the one pipeline on core `c`: the arrays as the launch finds them; after the body at point `t` each
    input's buffer at its block and the output's at the body's value of the three input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Hand

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.PayloadIdeal.lean ====
/-
  The body's one computed value, read at an entry. The body flattens its block of patches from
  (channel c, point t, tap k) to rows c·32 + t, multiplies by the weights (tap, output), re-reads the product's rows
  as (channel, point), swaps the two so that rows run point-major, t·128 + c, and adds the bias row to every row.
  So its entry at row t·128 + c and column q is  Σ_k patches (c, t, k) · weights (k, q) + bias q  on the extended
  reals, where rounding the operands to bf16 is the identity.
-/
import proofs.«121196_j52106543235142_2_alg».proof.Proof.Gen.KernelIdeal.Skeleton
import proofs.«121196_j52106543235142_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Hand

open Cert.KernelIdeal Cert.KernelIdeal.Gen
open Idealize.ShloMosaic Idealize.ShloMosaic.ValueIdx

/-- The body's value at row t·128 + c and column q. -/
theorem pay_apply (x0 : FVec Ideal S1x128x32x83 .f32) (x1 : FVec Ideal S83x256 .f32) (x2 : FVec Ideal S1x256 .f32)
    (t : Fin 32) (c : Fin 128) (q : Fin 256) :
    k0_pay1 (F := Ideal) x0 x1 x2 (ix2 (⟨t.val * 128 + c.val, by have := t.isLt; have := c.isLt; omega⟩ : Fin 4096) q)
      = (∑ k : Fin 83, x0 (ix4 (0 : Fin 1) c t k) * x1 (ix2 k q)) + x2 (ix2 (0 : Fin 1) q) := by
  have ht := t.isLt
  have hc := c.isLt
  unfold k0_pay1
  dsimp only
  refine congrArg₂ (· + ·) ?_ ?_
  · -- rows point-major: row t·128 + c of the swapped product is its entry (t, c), which is (c, t) before the swap
    refine (shapeCast_apply _ _ (ix2 (⟨t.val * 128 + c.val, by omega⟩ : Fin 4096) q) (ix3 t c q) (by
      rw [Shape.rowMajor_val_three, Shape.rowMajor_val_two]; rfl)).trans ?_
    refine (transpose_apply [1, 0, 2] _ _ (ix3 t c q) (ix3 c t q) (fun b => match b with
      | ⟨0, _⟩ => rfl
      | ⟨1, _⟩ => rfl
      | ⟨2, _⟩ => rfl)).trans ?_
    refine (shapeCast_apply _ _ (ix3 c t q) (ix2 (⟨c.val * 32 + t.val, by omega⟩ : Fin 4096) q) (by
      rw [Shape.rowMajor_val_three, Shape.rowMajor_val_two]; rfl)).trans ?_
    refine (matmul_zero_ix2 dot_S4096x83_S83x256_S4096x256_1_0_0_1_n_n rfl rfl rfl rfl rfl rfl none _ _
      (⟨c.val * 32 + t.val, by omega⟩ : Fin 4096) q).trans ?_
    refine Finset.sum_congr rfl fun k _ => congrArg₂ (· * ·) ?_ ?_
    · refine (shapeCast_apply _ _ (ix2 (⟨c.val * 32 + t.val, by omega⟩ : Fin 4096) k) (ix3 c t k) (by
        rw [Shape.rowMajor_val_three, Shape.rowMajor_val_two]; rfl)).trans ?_
      exact shapeCast_1abc_abc_apply x0 _ c t k
    · show shapeCast S83x256 x1 _ (ix2 k q) = _
      rw [shapeCast_self]
  · refine (broadcastTo_1b_ab_apply _ _ (⟨t.val * 128 + c.val, by omega⟩ : Fin 4096) q).trans ?_
    rw [shapeCast_self]

end Cert.KernelIdeal.Hand

end
-- ==== Proof.ProjSpec.lean ====
/-
  The projection, as one function of its three operands. The gathered patches `cat` are indexed
  (batch, channel, point, tap) over 4 × 128 × 512 × 83; the weights `w` (output, tap) over 256 × 83; the bias over
  256. The result has one row per (batch, point, channel), in that order, so row r belongs to batch r / 65536,
  point (r / 128) mod 512 and channel r mod 128, and its entry in column o is
      Σ_k cat (batch, channel, point, k) · w (o, k)  +  bias o.
  Both programs compute this array and then read it under the shape 4 × 128 × 512 × 256.
-/
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.Projection

open Idealize.ShloMosaic Idealize.ShloMosaic.ValueIdx

/-- The batch a row belongs to. -/
def rowBatch (r : Fin 262144) : Fin 4 := ⟨r.val / 65536, by have := r.isLt; omega⟩
/-- Its channel. -/
def rowChan (r : Fin 262144) : Fin 128 := ⟨r.val % 128, by omega⟩
/-- Its point. -/
def rowPoint (r : Fin 262144) : Fin 512 := ⟨r.val / 128 % 512, by omega⟩

/-- The projection over the weights and bias as the reference program's arguments give them. -/
def proj (cat : FVec Ideal ⟨4, ![4, 128, 512, 83]⟩ .f32) (w : FVec Ideal ⟨2, ![256, 83]⟩ .f32) (bias : FVec Ideal ⟨1, ![256]⟩ .f32) :
    FVec Ideal ⟨2, ![262144, 256]⟩ .f32 := fun i =>
  (∑ k : Fin 83, cat (ix4 (rowBatch (i 0)) (rowChan (i 0)) (rowPoint (i 0)) k) * w (ix2 (i 1) k)) + bias (ix1 (i 1))

/-- The same over the weights transposed (tap, output) and the bias as a one-row matrix: the operands the kernel's
    launch is handed. -/
def projWin (cat : FVec Ideal ⟨4, ![4, 128, 512, 83]⟩ .f32) (wt : FVec Ideal ⟨2, ![83, 256]⟩ .f32) (brow : FVec Ideal ⟨2, ![1, 256]⟩ .f32) :
    FVec Ideal ⟨2, ![262144, 256]⟩ .f32 := fun i =>
  (∑ k : Fin 83, cat (ix4 (rowBatch (i 0)) (rowChan (i 0)) (rowPoint (i 0)) k) * wt (ix2 k (i 1))) + brow (ix2 (0 : Fin 1) (i 1))

/-- With the weights transposed and the bias re-read as a row, the two agree. -/
theorem projWin_eq (cat : FVec Ideal ⟨4, ![4, 128, 512, 83]⟩ .f32) (w : FVec Ideal ⟨2, ![256, 83]⟩ .f32) (bias : FVec Ideal ⟨1, ![256]⟩ .f32)
    (ht : (⟨2, ![256, 83]⟩ : Shape).Transposes [1, 0] ⟨2, ![83, 256]⟩) (hc : (⟨1, ![256]⟩ : Shape).ShapeCasts ⟨2, ![1, 256]⟩) :
    projWin cat (transpose ⟨2, ![83, 256]⟩ [1, 0] w ht) (shapeCast ⟨2, ![1, 256]⟩ bias hc) = proj cat w bias := by
  funext i
  unfold projWin proj
  rw [shapeCast_a_1a_apply bias hc (0 : Fin 1) (i 1)]
  refine congrArg (· + bias (ix1 (i 1))) (Finset.sum_congr rfl fun k _ => ?_)
  rw [transpose_ix2_apply w ht k (i 1)]

end Cert.Projection

end
-- ==== Proof.KernelBlocks.lean ====
/-
  The blocks the pipeline hands the body, read at coordinates. Grid point t = 16·b + j hands the body the patches of
  batch b and points 32·j … 32·j + 31, the whole weights and the whole bias row, and writes back rows
  4096·t … 4096·t + 4095 of the result. Row 4096·t + (128·tt + cc) is the row of batch b, point 32·j + tt, channel cc,
  and the body's value there is the projection's.
-/
import proofs.«121196_j52106543235142_2_alg».proof.Proof.FrameIdeal
import proofs.«121196_j52106543235142_2_alg».proof.Proof.PayloadIdeal
import proofs.«121196_j52106543235142_2_alg».proof.Proof.ProjSpec

set_option maxRecDepth 16384

open scoped BigOperators

noncomputable section

namespace Cert.KernelIdeal.Hand

open Cert.KernelIdeal Cert.KernelIdeal.Gen Cert.Projection
open Idealize.ShloMosaic Idealize.ShloMosaic.TcCoe Idealize.ShloMosaic.ValueIdx
open Idealize.SL Idealize.SL.Sem
open Idealize.ShloMosaic.Pipeline (Dat Cfg Window)

-- the contents the launch finds are a long fold over the host lines: never opened here
set_option allowUnsafeReducibility true in
attribute [local irreducible] V V0

variable (m : (ℓ : Loc nD τ sig) → Buf (Elt Ideal) ℓ)

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The printed index maps, decided once over the grid: the output's block index is the point itself; the patches'
    block is (batch t / 16, all channels, point block t mod 16, all taps); the weights and the bias are one block. -/
theorem idx_facts : ∀ t : Fin cfg0.N,
    win0_3.index t (0 : Fin 2) = t.val ∧ win0_3.index t (1 : Fin 2) = 0
    ∧ win0_0.index t (0 : Fin 4) = t.val / 16 ∧ win0_0.index t (1 : Fin 4) = 0
    ∧ win0_0.index t (2 : Fin 4) = t.val % 16 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem point_lt (t : Fin cfg0.N) : t.val < 64 := lt_of_lt_of_eq t.isLt N_0

/-- A block row is point-major: row tt·128 + cc, for a point tt of the 32 and a channel cc of the 128. -/
theorem row_lt (tt : Fin 32) (cc : Fin 128) : tt.val * 128 + cc.val < 4096 := by
  have := tt.isLt; have := cc.isLt; omega

/-- The row of the result that point `t`'s block row tt·128 + cc is. -/
abbrev rowOf (t : Fin cfg0.N) (tt : Fin 32) (cc : Fin 128) : Fin 262144 :=
  ⟨t.val * 4096 + (tt.val * 128 + cc.val), by have := point_lt t; have := row_lt tt cc; omega⟩

theorem row_split (j : S4096x256.Idx) :
    ∃ (tt : Fin 32) (cc : Fin 128) (q : Fin 256), j = ix2 (⟨tt.val * 128 + cc.val, row_lt tt cc⟩ : Fin 4096) q := by
  have hj0 : (j 0).val < 4096 := (j 0).isLt
  exact ⟨⟨(j 0).val / 128, by omega⟩, ⟨(j 0).val % 128, by omega⟩, j 1, funext fun a => by
    match a with
    | ⟨0, _⟩ => exact Fin.ext (by show (j 0).val = (j 0).val / 128 * 128 + (j 0).val % 128; omega)
    | ⟨1, _⟩ => rfl⟩

/-- The patches' block at point `t`, read at (channel cc, point tt, tap k): the array at the row's batch, channel, point. -/
theorem patches_read (c : Dev nD) (t : Fin cfg0.N) (tt : Fin 32) (cc : Fin 128) (k : Fin 83) :
    iblk m c 0 t (ix4 (0 : Fin 1) cc tt k)
      = V m c main_v129 (ix4 (rowBatch (rowOf t tt cc)) (rowChan (rowOf t tt cc)) (rowPoint (rowOf t tt cc)) k) := by
  have h := point_lt t
  have htt := tt.isLt
  have hcc := cc.isLt
  obtain ⟨-, -, e0, e1, e2, e3, -⟩ := idx_facts t
  unfold iblk
  rw [View.read_apply]
  show V m c main_v129 (((cfg0.win 0).blk t).view.emb (ix4 (0 : Fin 1) cc tt k)) = _
  refine congrArg (V m c main_v129) (funext fun a => Fin.ext ?_)
  match a with
  | ⟨0, _⟩ => show win0_0.index t (0 : Fin 4) * 1 + 1 * 0 = (t.val * 4096 + (tt.val * 128 + cc.val)) / 65536; omega
  | ⟨1, _⟩ => show win0_0.index t (1 : Fin 4) * 128 + 1 * cc.val = (t.val * 4096 + (tt.val * 128 + cc.val)) % 128; omega
  | ⟨2, _⟩ => show win0_0.index t (2 : Fin 4) * 32 + 1 * tt.val = (t.val * 4096 + (tt.val * 128 + cc.val)) / 128 % 512; omega
  | ⟨3, _⟩ => show win0_0.index t (3 : Fin 4) * 83 + 1 * k.val = k.val; omega

/-- The weights' one block is the whole array. -/
theorem weights_read (c : Dev nD) (t : Fin cfg0.N) (k : Fin 83) (q : Fin 256) :
    iblk m c 1 t (ix2 k q) = V m c main_v130 (ix2 k q) := by
  obtain ⟨-, -, -, -, -, -, e0, e1, -⟩ := idx_facts t
  unfold iblk
  rw [View.read_apply]
  show V m c main_v130 (((cfg0.win 1).blk t).view.emb (ix2 k q)) = _
  refine congrArg (V m c main_v130) (funext fun a => Fin.ext ?_)
  match a with
  | ⟨0, _⟩ => show win0_1.index t (0 : Fin 2) * 83 + 1 * k.val = k.val; omega
  | ⟨1, _⟩ => show win0_1.index t (1 : Fin 2) * 256 + 1 * q.val = q.val; omega

/-- So is the bias row's. -/
theorem bias_read (c : Dev nD) (t : Fin cfg0.N) (q : Fin 256) :
    iblk m c 2 t (ix2 (0 : Fin 1) q) = V m c main_v131 (ix2 (0 : Fin 1) q) := by
  obtain ⟨-, -, -, -, -, -, -, -, e0, e1⟩ := idx_facts t
  unfold iblk
  rw [View.read_apply]
  show V m c main_v131 (((cfg0.win 2).blk t).view.emb (ix2 (0 : Fin 1) q)) = _
  refine congrArg (V m c main_v131) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- The body's value on blocks that read three arrays as the pipeline's blocks do is the projection of the three arrays,
    at the block row's row of the result. -/
theorem block_value (cat : FVec Ideal ⟨4, ![4, 128, 512, 83]⟩ .f32) (wt : FVec Ideal ⟨2, ![83, 256]⟩ .f32)
    (brow : FVec Ideal ⟨2, ![1, 256]⟩ .f32) (t : Fin cfg0.N)
    (x0 : FVec Ideal S1x128x32x83 .f32) (x1 : FVec Ideal S83x256 .f32) (x2 : FVec Ideal S1x256 .f32)
    (h0 : ∀ (tt : Fin 32) (cc : Fin 128) (k : Fin 83),
      x0 (ix4 (0 : Fin 1) cc tt k) = cat (ix4 (rowBatch (rowOf t tt cc)) (rowChan (rowOf t tt cc)) (rowPoint (rowOf t tt cc)) k))
    (h1 : ∀ (k : Fin 83) (q : Fin 256), x1 (ix2 k q) = wt (ix2 k q))
    (h2 : ∀ q : Fin 256, x2 (ix2 (0 : Fin 1) q) = brow (ix2 (0 : Fin 1) q))
    (tt : Fin 32) (cc : Fin 128) (q : Fin 256) :
    k0_pay1 (F := Ideal) x0 x1 x2 (ix2 (⟨tt.val * 128 + cc.val, row_lt tt cc⟩ : Fin 4096) q)
      = projWin cat wt brow (ix2 (rowOf t tt cc) q) := by
  refine (pay_apply x0 x1 x2 tt cc q).trans ?_
  unfold projWin
  exact congrArg₂ (· + ·) (Finset.sum_congr rfl fun k _ => congrArg₂ (· * ·) (h0 tt cc k) (h1 k q)) (h2 q)

end Cert.KernelIdeal.Hand

end
-- ==== Proof.KernelValue.lean ====
/-
  From the blocks the body leaves to the whole result array: what each grid point writes back is its block of the
  projection of the three arrays the launch was handed; the 64 blocks tile the 262144 rows; so the result array after
  the launch is that projection, and the program's result is that array re-read under the shape 4 × 128 × 512 × 256.
-/
import proofs.«121196_j52106543235142_2_alg».proof.Proof.KernelBlocks

set_option maxRecDepth 16384

open scoped BigOperators

noncomputable section

namespace Cert.KernelIdeal.Hand

open Cert.KernelIdeal Cert.KernelIdeal.Gen Cert.Projection
open Idealize.ShloMosaic Idealize.ShloMosaic.TcCoe Idealize.ShloMosaic.ValueIdx
open Idealize.SL Idealize.SL.Sem
open Idealize.ShloMosaic.Pipeline (Dat Cfg Window)

-- the contents the launch finds are a long fold over the host lines: never opened here
set_option allowUnsafeReducibility true in
attribute [local irreducible] V V0

variable (m : (ℓ : Loc nD τ sig) → Buf (Elt Ideal) ℓ) (ρ : Dev nD → PrngReg)

/-- What point `t` writes back is block `t` of the projection of any three arrays the pipeline's blocks read. -/
theorem flushed_of (c : Dev nD) (t : Fin cfg0.N)
    (cat : FVec Ideal ⟨4, ![4, 128, 512, 83]⟩ .f32) (wt : FVec Ideal ⟨2, ![83, 256]⟩ .f32) (brow : FVec Ideal ⟨2, ![1, 256]⟩ .f32)
    (h0 : ∀ (tt : Fin 32) (cc : Fin 128) (k : Fin 83),
      iblk m c 0 t (ix4 (0 : Fin 1) cc tt k) = cat (ix4 (rowBatch (rowOf t tt cc)) (rowChan (rowOf t tt cc)) (rowPoint (rowOf t tt cc)) k))
    (h1 : ∀ (k : Fin 83) (q : Fin 256), iblk m c 1 t (ix2 k q) = wt (ix2 k q))
    (h2 : ∀ q : Fin 256, iblk m c 2 t (ix2 (0 : Fin 1) q) = brow (ix2 (0 : Fin 1) q)) :
    (dats m 0 c).flushed 3 t = ((cfg0.win 3).blk t).view.read (Elt Ideal) (projWin cat wt brow) := by
  have h := point_lt t
  obtain ⟨o0, o1, -⟩ := idx_facts t
  show (cfg0.win 3).cut (grid0.coords t) ((dats m 0 c).after 3 t) = _
  rw [after_3]
  unfold outBlock
  rw [View.canon_unit_zero zero2]
  simp only [View.ld_unit_zero (S := S1x128x32x83) zero4, View.ld_unit_zero (S := S83x256) zero2, View.ld_unit_zero (S := S1x256) zero2]
  funext j
  obtain ⟨tt, cc, q, rfl⟩ := row_split j
  have htt := tt.isLt
  have hcc := cc.isLt
  have he : ((cfg0.win 3).blk t).view.emb (ix2 (⟨tt.val * 128 + cc.val, row_lt tt cc⟩ : Fin 4096) q) = ix2 (rowOf t tt cc) q :=
    funext fun a => Fin.ext (by
      match a with
      | ⟨0, _⟩ => show win0_3.index t (0 : Fin 2) * 4096 + 1 * (tt.val * 128 + cc.val) = t.val * 4096 + (tt.val * 128 + cc.val); omega
      | ⟨1, _⟩ => show win0_3.index t (1 : Fin 2) * 256 + 1 * q.val = q.val; omega)
  show k0_pay1 (F := Ideal) (iblk m c 0 t) (iblk m c 1 t) (iblk m c 2 t) (ix2 (⟨tt.val * 128 + cc.val, row_lt tt cc⟩ : Fin 4096) q)
    = projWin cat wt brow (((cfg0.win 3).blk t).view.emb (ix2 (⟨tt.val * 128 + cc.val, row_lt tt cc⟩ : Fin 4096) q))
  rw [he]
  exact block_value cat wt brow t (iblk m c 0 t) (iblk m c 1 t) (iblk m c 2 t) h0 h1 h2 tt cc q

/-- At the three arrays the launch was handed. -/
theorem flushed_eq (c : Dev nD) (t : Fin cfg0.N) :
    (dats m 0 c).flushed 3 t
      = ((cfg0.win 3).blk t).view.read (Elt Ideal) (projWin (V m c main_v129) (V m c main_v130) (V m c main_v131)) :=
  flushed_of m c t (V m c main_v129) (V m c main_v130) (V m c main_v131)
    (fun tt cc k => patches_read m c t tt cc k) (fun k q => weights_read m c t k q) (fun q => bias_read m c t q)

/-- An index of the result array is in point `t`'s block iff each coordinate is in the block's range on its axis. -/
theorem mem_blk (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v132).slice (win0_3.rect t)).set ↔ _
  rw [View.set_slice_whole, Rect.mem_set_unit]
  exact Iff.rfl

/-- Every row is in the block of the point row / 4096. -/
theorem cover (i : S262144x256.Idx) : ∃ t : Fin cfg0.N, (cfg0.win 3).flush t = true ∧ i ∈ ((cfg0.win 3).blk t).view.set := by
  have hi0 : (i 0).val < 262144 := (i 0).isLt
  have hi1 : (i 1).val < 256 := (i 1).isLt
  have hlt : (i 0).val / 4096 < cfg0.N := lt_of_lt_of_eq (by omega : (i 0).val / 4096 < 64) N_0.symm
  refine ⟨⟨(i 0).val / 4096, hlt⟩, flush0_3 _, ?_⟩
  rw [mem_blk]
  obtain ⟨o0, o1, -⟩ := idx_facts ⟨(i 0).val / 4096, hlt⟩
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [o0]; show (i 0).val / 4096 * 4096 ≤ (i 0).val ∧ (i 0).val < (i 0).val / 4096 * 4096 + 4096; omega
  | ⟨1, _⟩ =>
    show win0_3.index ⟨(i 0).val / 4096, hlt⟩ (1 : Fin 2) * 256 ≤ (i 1).val ∧ (i 1).val < win0_3.index ⟨(i 0).val / 4096, hlt⟩ (1 : Fin 2) * 256 + 256
    rw [o1]; omega

/-- The result array after the launch: the projection of the three arrays the launch was handed. -/
theorem final_win (c : Dev nD) :
    (dats m 0 c).arrAt 3 cfg0.N = projWin (V m c main_v129) (V m c main_v130) (V m c main_v131) :=
  (dats m 0 c).arrAt_eq_of_cover 3 _ (fun t _ => flushed_eq m c t) cover

/-- The program's result buffer at the end: the line after the launch re-reads the result array under the shape 4 × 128 × 512 × 256. -/
theorem result_eq (c : Dev nD) :
    Pipeline.afterTail₀ cfgs (dats m) 0 (V0 m) [hostOps1] c main_v133
      = shapeCast S4x128x512x256 (projWin (V m c main_v129) (V m c main_v130) (V m c main_v131)) shapeCasts_S262144x256_S4x128x512x256 := by
  unfold Pipeline.afterTail₀
  show StableHlo.after hostOps1 _ (Proc.devRef .tc main_v133) = _
  rw [StableHlo.after_cons, StableHlo.after_nil, StableHlo.reshape_result]
  refine congrArg (fun x => shapeCast S4x128x512x256 x shapeCasts_S262144x256_S4x128x512x256) ?_
  exact (Pipeline.withArrays_arr spec0 launch0.win.arr_inj c _ _ 3).trans (final_win m c)

end Cert.KernelIdeal.Hand

end
-- ==== Proof.JoinIdeal.lean ====
/-
  The joined patches' buffer right after the host line that joins them: the concatenation, along the tap axis, of
  what the three gathered-patch buffers hold just before, each read at its own buffer. The concatenation is given a
  name taking the three operands as plain arguments, so that a rewriting pass goes on into the three operands' own
  histories (it does not enter the second components of the concatenation's list of shape-and-array pairs).
-/
import proofs.«121196_j52106543235142_2_alg».proof.KernelIdeal
import proofs.«121196_j52106543235142_2_alg».proof.Proof.Gen.KernelIdeal
import Idealize.ShloMosaic.Lib.StableHlo.Run

noncomputable section

namespace Cert.KernelIdeal.Join

open Cert.KernelIdeal Cert.KernelIdeal.Gen
open Idealize.ShloMosaic Idealize.ShloMosaic.TcCoe Idealize.ShloMosaic.StableHlo
open Idealize.SL.Sem

variable {F : FTy → Type} [FloatOps F]

/-- The three gathered-patch arrays (49, 25 and 9 taps) joined along the tap axis. -/
def join3 (p : (⟨S4x128x512x49, .f32⟩ : BufTy).Contents (Elt F)) (q : (⟨S4x128x512x25, .f32⟩ : BufTy).Contents (Elt F))
    (r : (⟨S4x128x512x9, .f32⟩ : BufTy).Contents (Elt F)) : (⟨S4x128x512x83, .f32⟩ : BufTy).Contents (Elt F) :=
  concatenate S4x128x512x83 3 [⟨S4x128x512x49, p⟩, ⟨S4x128x512x25, q⟩, ⟨S4x128x512x9, r⟩]
    concatenates_S4x128x512x49_S4x128x512x25_S4x128x512x9_S4x128x512x83_d3

/-- After the joining line, the joined buffer holds the three operands' contents, joined. -/
theorem joined_result (hxs hy) (G : Valuation τ sig (Elt F)) :
    (StableHlo.nary (τ := τ) ![main_v42, main_v85, main_v128] main_v129
        (fun u => concatenate S4x128x512x83 3 [⟨S4x128x512x49, u 0⟩, ⟨S4x128x512x25, u 1⟩, ⟨S4x128x512x9, u 2⟩]
          concatenates_S4x128x512x49_S4x128x512x25_S4x128x512x9_S4x128x512x83_d3) hxs hy).result G (no_index (Proc.devRef .tc main_v129))
      = join3 (G (Proc.devRef .tc main_v42)) (G (Proc.devRef .tc main_v85)) (G (Proc.devRef .tc main_v128)) := by
  rw [StableHlo.nary_result]
  rfl

/-- What one buffer holds after a list of this program's host operations, by one rewriting pass that reads the joining
    line's operands each at its own buffer and goes on into their histories. -/
macro "after_results_joined_k" : tactic =>
  `(tactic| (simp (disch := decide) only [StableHlo.after_cons, StableHlo.after_nil,
      StableHlo.nullary_result', StableHlo.unary_result', StableHlo.binary_result', StableHlo.ternary_result', StableHlo.quaternary_result',
      StableHlo.reshape_result', joined_result, StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']))

end Cert.KernelIdeal.Join

end
-- ==== Proof.HostValuesIdeal.lean ====
/-
  Two of the three arrays the launch is handed, as functions of the argument arrays: the host lines before the launch
  compute the transposed weights and the bias as a one-row matrix directly from arguments 4 and 5.
-/
import proofs.«121196_j52106543235142_2_alg».proof.Proof.HostIdeal
import proofs.«121196_j52106543235142_2_alg».proof.Proof.JoinIdeal
import Idealize.ShloMosaic.PureOps.Ideal

noncomputable section

namespace Cert.KernelIdeal.Hand

open Cert.KernelIdeal Cert.KernelIdeal.Gen Cert.KernelIdeal.Join
open Idealize.ShloMosaic Idealize.ShloMosaic.TcCoe Idealize.ShloMosaic.StableHlo
open Idealize.SL Idealize.SL.Sem

variable (m : (ℓ : Loc nD τ sig) → Buf (Elt Ideal) ℓ)

set_option maxRecDepth 65536 in
/-- The launch's second operand is argument 4 transposed. -/
theorem V_weights (c : Dev nD) :
    V m c main_v130 = transpose S83x256 [1, 0] (m ((c : Thread nD τ).loc main_arg4)) transposes_S256x83_S83x256_1_0 := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results_joined_k <;> rfl

set_option maxRecDepth 65536 in
/-- Its third operand is argument 5 re-read as a one-row matrix. -/
theorem V_bias (c : Dev nD) :
    V m c main_v131 = shapeCast S1x256 (m ((c : Thread nD τ).loc main_arg5)) shapeCasts_S256_S1x256 := by
  dsimp only [V, V0]
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results_joined_k <;> rfl

end Cert.KernelIdeal.Hand

end
-- ==== Proof.KernelResult.lean ====
/-
  The kernel program's run with its result read as the projection: every weakly fair execution terminates without a
  fault; the result buffer ends at the projection of (the joined patches the launch finds, argument 4, argument 5) re-read
  under the shape 4 × 128 × 512 × 256; the six argument arrays end as they started.
-/
import proofs.«121196_j52106543235142_2_alg».proof.Proof.KernelValue
import proofs.«121196_j52106543235142_2_alg».proof.Proof.HostValuesIdeal

noncomputable section

namespace Cert.KernelIdeal.Hand

open Cert.KernelIdeal Cert.KernelIdeal.Gen Cert.Projection
open Idealize.ShloMosaic Idealize.ShloMosaic.TcCoe
open Idealize.SL Idealize.SL.Sem

-- the contents the launch finds are a long fold over the host lines: never opened here
set_option allowUnsafeReducibility true in
attribute [local irreducible] V V0

variable (m : (ℓ : Loc nD τ sig) → Buf (Elt Ideal) ℓ) (ρ : Dev nD → PrngReg)

/-- The program's result: the projection of the joined patches the launch finds, the weights and the bias, re-read. -/
def resultOf (c : Dev nD) : Buf (Elt Ideal) ((c.tc : Thread nD τ).loc main_v133) :=
  shapeCast S4x128x512x256
    (proj (V m c main_v129) (m ((c : Thread nD τ).loc main_arg4)) (m ((c : Thread nD τ).loc main_arg5)))
    shapeCasts_S262144x256_S4x128x512x256

/-- The result buffer after the run is that. -/
theorem result_is (c : Dev nD) :
    Pipeline.afterTail₀ cfgs (dats m) 0 (V0 m) [hostOps1] c main_v133 = resultOf m c := by
  rw [result_eq, V_weights, V_bias, projWin_eq]
  rfl

/-- The run, with the result read. -/
theorem run_value : θ_run defs (onTc (τ := τ) (main (F := Ideal))) ⟨m, fun _ => 0, ρ⟩ (fun r => ∀ c : Dev nD,
      r.2.mem ((c.tc : Thread nD τ).loc main_v133) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v133 (Pipeline.mem_restRefs_of main_v133 (by decide) (by decide))).trans (result_is m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefTail.lean ====
/-
  The reference program's last lines as one function. After joining the gathered patches the reference swaps their
  channel and point axes, flattens them to rows in (batch, point, channel) order, multiplies the rows by the transposed
  weights, adds the bias to every row, and re-reads the rows under the shape 4 × 128 × 512 × 256. Row r of the flattened
  patches is the patch of batch r / 65536, point (r / 128) mod 512, channel r mod 128: so the rows before the last
  re-read are the projection of the joined patches, the weights and the bias.
-/
import proofs.«121196_j52106543235142_2_alg».proof.ReferenceIdeal
import proofs.«121196_j52106543235142_2_alg».proof.Proof.Gen.ReferenceIdeal
import proofs.«121196_j52106543235142_2_alg».proof.Proof.ProjSpec
import proofs.«121196_j52106543235142_2_alg».proof.Proof.LibMatmul

open scoped BigOperators

noncomputable section

namespace Cert.ReferenceIdeal.RefValue

open Cert.ReferenceIdeal Cert.ReferenceIdeal.Gen Cert.Projection
open Idealize.ShloMosaic Idealize.ShloMosaic.ValueIdx

/-- The reference's lines after the joining one, as a function of the joined patches, the weights and the bias. -/
def tail (cat : FVec Ideal S4x128x512x83 .f32) (w : FVec Ideal S256x83 .f32) (bias : FVec Ideal S256 .f32) :
    FVec Ideal S4x128x512x256 .f32 :=
  shapeCast S4x128x512x256
    (addf
      (Host.dotGeneral dot_S262144x83_S83x256_S262144x256_1_0_0_1_n_n none
        (shapeCast S262144x83 (transpose S4x512x128x83 [0, 2, 1, 3] cat transposes_S4x128x512x83_S4x512x128x83_0_2_1_3)
          shapeCasts_S4x512x128x83_S262144x83)
        (transpose S83x256 [1, 0] w transposes_S256x83_S83x256_1_0))
      (broadcastInDim S262144x256 ![0, 1] bcast_S1x256_S262144x256_0_1 (broadcastInDim S1x256 ![1] bcast_S256_S1x256_1 bias)))
    shapeCasts_S262144x256_S4x128x512x256

/-- Those lines compute the projection and re-read it under the shape 4 × 128 × 512 × 256. -/
theorem tail_eq (cat : FVec Ideal S4x128x512x83 .f32) (w : FVec Ideal S256x83 .f32) (bias : FVec Ideal S256 .f32) :
    tail cat w bias = shapeCast S4x128x512x256 (proj cat w bias) shapeCasts_S262144x256_S4x128x512x256 := by
  unfold tail
  refine congrArg (fun x => shapeCast S4x128x512x256 x shapeCasts_S262144x256_S4x128x512x256) ?_
  funext i
  obtain ⟨r, q, rfl⟩ : ∃ (r : Fin 262144) (q : Fin 256), i = ix2 r q := ⟨i 0, i 1, eq_ix2 i⟩
  have hr := r.isLt
  unfold proj
  refine congrArg₂ (· + ·) ?_ ?_
  · refine (dotGeneral_ix2 dot_S262144x83_S83x256_S262144x256_1_0_0_1_n_n rfl rfl rfl rfl rfl rfl none _ _ _ r q).trans ?_
    refine Finset.sum_congr rfl fun k _ => congrArg₂ (· * ·) ?_ ?_
    · have hk := k.isLt
      refine (shapeCast_apply _ _ (ix2 r k) (ix4 (rowBatch r) (rowPoint r) (rowChan r) k) (by
        rw [Shape.rowMajor_val_four, Shape.rowMajor_val_two]
        show ((r.val / 65536 * 512 + r.val / 128 % 512) * 128 + r.val % 128) * 83 + k.val = r.val * 83 + k.val
        omega)).trans ?_
      exact transpose_apply [0, 2, 1, 3] cat _ (ix4 (rowBatch r) (rowPoint r) (rowChan r) k)
        (ix4 (rowBatch r) (rowChan r) (rowPoint r) k) (fun b => match b with
          | ⟨0, _⟩ => rfl
          | ⟨1, _⟩ => rfl
          | ⟨2, _⟩ => rfl
          | ⟨3, _⟩ => rfl)
    · exact transpose_ix2_apply w _ k q
  · refine (broadcastInDim_apply _ bcast_S1x256_S262144x256_0_1 _ (ix2 r q) (ix2 (0 : Fin 1) q) (fun a => match a with
      | ⟨0, _⟩ => by show 0 = if (1 : Nat) = 1 then 0 else r.val; rw [if_pos rfl]
      | ⟨1, _⟩ => by show q.val = if (256 : Nat) = 1 then 0 else q.val; rw [if_neg (by decide)])).trans ?_
    exact broadcastInDim_apply _ bcast_S256_S1x256_1 bias (ix2 (0 : Fin 1) q) (ix1 q) (fun a => match a with
      | ⟨0, _⟩ => by show q.val = if (256 : Nat) = 1 then 0 else q.val; rw [if_neg (by decide)])

end Cert.ReferenceIdeal.RefValue

end
-- ==== Proof.RefRun.lean ====
/-
  The reference program's run. It is a straight line of host operations, so every weakly fair execution terminates
  without a fault with each buffer at the fold of the operations over the launch contents. No operation writes an
  argument array. The first 289 operations compute the joined patches; the last eight, which write neither the joined
  patches nor an argument, are the lines `tail` names: so the result is `tail` of the joined patches, argument 4 and
  argument 5.
-/
import proofs.«121196_j52106543235142_2_alg».proof.Proof.RefRunP
import proofs.«121196_j52106543235142_2_alg».proof.Proof.RefTail
import Idealize.ShloMosaic.Lib.Pipeline.Frame

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The joined patches the reference computes: what its joined-patches buffer holds at the end. -/
def catRef (c : Dev nD) : FVec Ideal S4x128x512x83 .f32 :=
  StableHlo.after (ops (F := Ideal)) (launchContents m c) (Proc.devRef .tc main_v129)

/-- No operation writes argument 0. -/
theorem ops_keep_arg0 : ∀ op ∈ (ops (F := Ideal)), Proc.devRef (τ := τ) .tc main_arg0 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 1. -/
theorem ops_keep_arg1 : ∀ op ∈ (ops (F := Ideal)), Proc.devRef (τ := τ) .tc main_arg1 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 2. -/
theorem ops_keep_arg2 : ∀ op ∈ (ops (F := Ideal)), Proc.devRef (τ := τ) .tc main_arg2 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 3. -/
theorem ops_keep_arg3 : ∀ op ∈ (ops (F := Ideal)), Proc.devRef (τ := τ) .tc main_arg3 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 4. -/
theorem ops_keep_arg4 : ∀ op ∈ (ops (F := Ideal)), Proc.devRef (τ := τ) .tc main_arg4 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- No operation writes argument 5. -/
theorem ops_keep_arg5 : ∀ op ∈ (ops (F := Ideal)), Proc.devRef (τ := τ) .tc main_arg5 ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

/-- The last eight operations, in order. -/
abbrev lastOps {F : FTy → Type} [FloatOps F] : List (HloOp τ sig (Elt F)) :=
  [
    unary main_v129 main_v130 ((transpose S4x512x128x83 [0, 2, 1, 3] · transposes_S4x128x512x83_S4x512x128x83_0_2_1_3) : (⟨S4x128x512x83, .f32⟩ : BufTy).Contents (Elt F) → (⟨S4x512x128x83, .f32⟩ : BufTy).Contents (Elt F)),
    reshape main_v130 main_v131 rfl shapeCasts_S4x512x128x83_S262144x83,
    unary main_arg4 main_v132 ((transpose S83x256 [1, 0] · transposes_S256x83_S83x256_1_0) : (⟨S256x83, .f32⟩ : BufTy).Contents (Elt F) → (⟨S83x256, .f32⟩ : BufTy).Contents (Elt F)),
    binary main_v131 main_v132 main_v133 ((fun l r => Host.dotGeneral dot_S262144x83_S83x256_S262144x256_1_0_0_1_n_n none l r) : (⟨S262144x83, .f32⟩ : BufTy).Contents (Elt F) → (⟨S83x256, .f32⟩ : BufTy).Contents (Elt F) → (⟨S262144x256, .f32⟩ : BufTy).Contents (Elt F)),
    unary main_arg5 main_v134 (broadcastInDim S1x256 ![1] bcast_S256_S1x256_1 : (⟨S256, .f32⟩ : BufTy).Contents (Elt F) → (⟨S1x256, .f32⟩ : BufTy).Contents (Elt F)),
    unary main_v134 main_v135 (broadcastInDim S262144x256 ![0, 1] bcast_S1x256_S262144x256_0_1 : (⟨S1x256, .f32⟩ : BufTy).Contents (Elt F) → (⟨S262144x256, .f32⟩ : BufTy).Contents (Elt F)),
    binary main_v133 main_v135 main_v136 (addf : (⟨S262144x256, .f32⟩ : BufTy).Contents (Elt F) → (⟨S262144x256, .f32⟩ : BufTy).Contents (Elt F) → (⟨S262144x256, .f32⟩ : BufTy).Contents (Elt F)),
    reshape main_v136 main_v137 rfl shapeCasts_S262144x256_S4x128x512x256 ]

/-- They are the operation list from position 289 on. -/
theorem drop_eq {F : FTy → Type} [FloatOps F] : (ops (F := F)).drop 289 = lastOps := rfl

/-- The operations are the first 289 followed by the last eight. -/
theorem ops_split : (ops (F := Ideal)) = (ops (F := Ideal)).take 289 ++ lastOps :=
  (List.take_append_drop 289 (ops (F := Ideal))).symm.trans (congrArg ((ops (F := Ideal)).take 289 ++ ·) drop_eq)

/-- The last eight operations write neither the joined patches nor an argument they read. -/
theorem last_keeps (W : Valuation τ sig (Elt Ideal)) :
    StableHlo.after lastOps W (Proc.devRef .tc main_v129) = W (Proc.devRef .tc main_v129) := by
  after_results_simp

/-- What the last eight operations leave in the result buffer, from any contents before them. -/
theorem last_result (W : Valuation τ sig (Elt Ideal)) :
    StableHlo.after lastOps W (Proc.devRef .tc main_v137)
      = tail (W (Proc.devRef .tc main_v129)) (W (Proc.devRef .tc main_arg4)) (W (Proc.devRef .tc main_arg5)) := by
  after_results_simp
  rfl

/-- The result buffer at the end: the last lines applied to the joined patches, argument 4 and argument 5. -/
theorem result_ref (c : Dev nD) :
    StableHlo.after (ops (F := Ideal)) (launchContents m c) (Proc.devRef .tc main_v137)
      = tail (catRef m c) (m ((c.tc : Thread nD τ).loc main_arg4)) (m ((c.tc : Thread nD τ).loc main_arg5)) := by
  have hcat : catRef m c = StableHlo.after ((ops (F := Ideal)).take 289) (launchContents m c) (Proc.devRef .tc main_v129) := by
    unfold catRef
    conv_lhs => rw [ops_split, StableHlo.after_append]
    exact last_keeps _
  have h4 : StableHlo.after ((ops (F := Ideal)).take 289) (launchContents m c) (Proc.devRef .tc main_arg4) = m ((c.tc : Thread nD τ).loc main_arg4) :=
    StableHlo.after_of_forall_not_mem _ _ fun op hop => ops_keep_arg4 op (List.mem_of_mem_take hop)
  have h5 : StableHlo.after ((ops (F := Ideal)).take 289) (launchContents m c) (Proc.devRef .tc main_arg5) = m ((c.tc : Thread nD τ).loc main_arg5) :=
    StableHlo.after_of_forall_not_mem _ _ fun op hop => ops_keep_arg5 op (List.mem_of_mem_take hop)
  conv_lhs => rw [ops_split, StableHlo.after_append]
  rw [last_result, hcat, h4, h5]

/-- The run: it terminates without a fault, the result as above, the six argument arrays as they started. -/
theorem ref_run : θ_run defs (onTc (τ := τ) (main (F := Ideal))) ⟨m, fun _ => 0, ρ⟩ fun r => ∀ c : Dev nD,
      r.2.mem ((c.tc : Thread nD τ).loc main_v137)
        = tail (catRef m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v137).trans (result_ref m c),
      (h c main_arg0).trans (StableHlo.after_of_forall_not_mem _ _ ops_keep_arg0),
      (h c main_arg1).trans (StableHlo.after_of_forall_not_mem _ _ ops_keep_arg1),
      (h c main_arg2).trans (StableHlo.after_of_forall_not_mem _ _ ops_keep_arg2),
      (h c main_arg3).trans (StableHlo.after_of_forall_not_mem _ _ ops_keep_arg3),
      (h c main_arg4).trans (StableHlo.after_of_forall_not_mem _ _ ops_keep_arg4),
      (h c main_arg5).trans (StableHlo.after_of_forall_not_mem _ _ ops_keep_arg5)⟩)
    (run_seq scopedRefs_eq scopedSems_eq defs main (fun _ => ops) main_eq (fun _ => ops_sub) m ρ)

end Cert.ReferenceIdeal.RefValue

end
-- ==== Proof.JoinRef.lean ====
/-
  The joined patches' buffer right after the host line that joins them: the concatenation, along the tap axis, of
  what the three gathered-patch buffers hold just before, each read at its own buffer. The concatenation is given a
  name taking the three operands as plain arguments, so that a rewriting pass goes on into the three operands' own
  histories (it does not enter the second components of the concatenation's list of shape-and-array pairs).
-/
import proofs.«121196_j52106543235142_2_alg».proof.ReferenceIdeal
import proofs.«121196_j52106543235142_2_alg».proof.Proof.Gen.ReferenceIdeal
import Idealize.ShloMosaic.Lib.StableHlo.Run

noncomputable section

namespace Cert.ReferenceIdeal.RefJoin

open Cert.ReferenceIdeal Cert.ReferenceIdeal.Gen
open Idealize.ShloMosaic Idealize.ShloMosaic.TcCoe Idealize.ShloMosaic.StableHlo
open Idealize.SL.Sem

variable {F : FTy → Type} [FloatOps F]

/-- The three gathered-patch arrays (49, 25 and 9 taps) joined along the tap axis. -/
def join3 (p : (⟨S4x128x512x49, .f32⟩ : BufTy).Contents (Elt F)) (q : (⟨S4x128x512x25, .f32⟩ : BufTy).Contents (Elt F))
    (r : (⟨S4x128x512x9, .f32⟩ : BufTy).Contents (Elt F)) : (⟨S4x128x512x83, .f32⟩ : BufTy).Contents (Elt F) :=
  concatenate S4x128x512x83 3 [⟨S4x128x512x49, p⟩, ⟨S4x128x512x25, q⟩, ⟨S4x128x512x9, r⟩]
    concatenates_S4x128x512x49_S4x128x512x25_S4x128x512x9_S4x128x512x83_d3

/-- After the joining line, the joined buffer holds the three operands' contents, joined. -/
theorem joined_result (hxs hy) (G : Valuation τ sig (Elt F)) :
    (StableHlo.nary (τ := τ) ![main_v42, main_v85, main_v128] main_v129
        (fun u => concatenate S4x128x512x83 3 [⟨S4x128x512x49, u 0⟩, ⟨S4x128x512x25, u 1⟩, ⟨S4x128x512x9, u 2⟩]
          concatenates_S4x128x512x49_S4x128x512x25_S4x128x512x9_S4x128x512x83_d3) hxs hy).result G (no_index (Proc.devRef .tc main_v129))
      = join3 (G (Proc.devRef .tc main_v42)) (G (Proc.devRef .tc main_v85)) (G (Proc.devRef .tc main_v128)) := by
  rw [StableHlo.nary_result]
  rfl

/-- What one buffer holds after a list of this program's host operations, by one rewriting pass that reads the joining
    line's operands each at its own buffer and goes on into their histories. -/
macro "after_results_joined" : tactic =>
  `(tactic| (simp (disch := decide) only [StableHlo.after_cons, StableHlo.after_nil,
      StableHlo.nullary_result', StableHlo.unary_result', StableHlo.binary_result', StableHlo.ternary_result', StableHlo.quaternary_result',
      StableHlo.reshape_result', joined_result, StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne']))

end Cert.ReferenceIdeal.RefJoin

end
-- ==== Proof.CatEq.lean ====
/-
  The two programs join the same patches. Before its launch the kernel program applies to its arguments 0 to 3 the very
  host operations, in the very order, that the reference applies to its own up to the joining line; so from memories that
  agree on those four arguments, the reference's joined patches are the joined patches the launch finds. Both sides are
  read back as the operations' composed term and the two terms are the same, operation for operation.
-/
import proofs.«121196_j52106543235142_2_alg».proof.Proof.HostIdeal
import proofs.«121196_j52106543235142_2_alg».proof.Proof.JoinIdeal
import proofs.«121196_j52106543235142_2_alg».proof.Proof.JoinRef
import proofs.«121196_j52106543235142_2_alg».proof.Proof.RefRun

noncomputable section

namespace Cert.KernelIdeal.Hand

open Idealize.ShloMosaic Idealize.ShloMosaic.TcCoe Idealize.ShloMosaic.StableHlo
open Idealize.SL Idealize.SL.Sem

-- an and-reduction over millions of elements is compared argument by argument, never opened
attribute [local irreducible] Host.reduce

set_option maxRecDepth 65536 in
set_option maxHeartbeats 400000000 in
/-- From memories agreeing on arguments 0 to 3, the reference's joined patches are those the kernel's launch finds. -/
theorem cat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3)) :
    Cert.ReferenceIdeal.RefValue.catRef m' c = V m c Cert.KernelIdeal.main_v129 := by
  unfold Cert.ReferenceIdeal.RefValue.catRef
  dsimp only [V, V0]
  -- the two launch memories as valuations, agreeing on the four arguments
  have g0 : launchContents m' c (Proc.devRef .tc Cert.ReferenceIdeal.main_arg0) = launchContents m c (Proc.devRef .tc Cert.KernelIdeal.main_arg0) := h0
  have g1 : launchContents m' c (Proc.devRef .tc Cert.ReferenceIdeal.main_arg1) = launchContents m c (Proc.devRef .tc Cert.KernelIdeal.main_arg1) := h1
  have g2 : launchContents m' c (Proc.devRef .tc Cert.ReferenceIdeal.main_arg2) = launchContents m c (Proc.devRef .tc Cert.KernelIdeal.main_arg2) := h2
  have g3 : launchContents m' c (Proc.devRef .tc Cert.ReferenceIdeal.main_arg3) = launchContents m c (Proc.devRef .tc Cert.KernelIdeal.main_arg3) := h3
  show (StableHlo.after _ (launchContents m' c) (Proc.devRef .tc Cert.ReferenceIdeal.main_v129) : FVec Ideal Cert.ReferenceIdeal.S4x128x512x83 .f32)
    = StableHlo.after _ (launchContents m c) (Proc.devRef .tc Cert.KernelIdeal.main_v129)
  generalize launchContents m' c = L' at g0 g1 g2 g3 ⊢
  generalize launchContents m c = L at g0 g1 g2 g3 ⊢
  simp only [prefixOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, List.flatten_cons, List.flatten_nil, List.append_nil, List.cons_append, List.nil_append]
  simp (disch := decide) only [StableHlo.after_cons, StableHlo.after_nil, Cert.KernelIdeal.Join.joined_result, Cert.ReferenceIdeal.RefJoin.joined_result,
    StableHlo.nullary_result', StableHlo.unary_result', StableHlo.binary_result', StableHlo.ternary_result', StableHlo.quaternary_result', StableHlo.reshape_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rw [g0, g1, g2, g3]
  rfl

end Cert.KernelIdeal.Hand

end
-- ==== Proof.lean ====
/-
  Both programs gather, at each of 512 points per batch, a 7 × 7, a 5 × 5 and a 3 × 3 patch of three feature maps,
  join the 83 taps, and project every (batch, point, channel) row of taps through a 256 × 83 weight matrix plus a
  bias; both then read the 262144 × 256 rows under the shape 4 × 128 × 512 × 256. The kernel program does the projection
  in a kernel launched over a 4 × 16 grid, one batch and 32 points at a time, reordering each product block from
  channel-major to point-major rows; the reference swaps the axes of the joined patches first and multiplies once.
  On the extended reals both results are, entry by entry, the same finite sum of products plus the bias, over the same
  joined patches, so nothing about finiteness of the inputs is used.

  The three frames: each kernel program's from its run around the launch; the reference's from its run, the result dropped.
  The idealized kernel is the kernel's own text (no rewrite was applied), so that conjunct is trivial.
-/
import proofs.«121196_j52106543235142_2_alg».proof.Defs
import proofs.«121196_j52106543235142_2_alg».proof.Proof.Gen.Kernel
import proofs.«121196_j52106543235142_2_alg».proof.Proof.Gen.KernelIdeal
import proofs.«121196_j52106543235142_2_alg».proof.Proof.Gen.ReferenceIdeal
import proofs.«121196_j52106543235142_2_alg».proof.Proof.Gen.Pre_finite_inputs
import proofs.«121196_j52106543235142_2_alg».proof.Proof.FrameBits
import proofs.«121196_j52106543235142_2_alg».proof.Proof.KernelResult
import proofs.«121196_j52106543235142_2_alg».proof.Proof.RefRun
import proofs.«121196_j52106543235142_2_alg».proof.Proof.CatEq
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- Both results are the projection of the same joined patches, weights and bias, re-read under the same shape. -/
theorem algebraic : Cert.algebraic_KernelIdeal_ReferenceIdeal := by
  intro m ρ m' ρ' _ hagree
  refine ⟨fun c => Cert.KernelIdeal.Hand.resultOf m c, Cert.KernelIdeal.Hand.run_value m ρ, ?_⟩
  refine (θ_run Cert.ReferenceIdeal.defs _ _).mono (fun _ h c => ⟨(h c).1.trans ?_, (h c).2⟩)
    (Cert.ReferenceIdeal.RefValue.ref_run m' ρ')
  rw [Cert.ReferenceIdeal.RefValue.tail_eq,
    Cert.KernelIdeal.Hand.cat_eq m m' c (hagree c).1 (hagree c).2.1 (hagree c).2.2.1 (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
